-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S20000x256 : Shape := ⟨2, ![20000, 256]⟩
abbrev S1x256 : Shape := ⟨2, ![1, 256]⟩
abbrev S500000 : Shape := ⟨1, ![500000]⟩
abbrev S256 : Shape := ⟨1, ![256]⟩
abbrev S512x256 : Shape := ⟨2, ![512, 256]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S256 .f32) (main_arg10 : FVec F S512x256 .f32) (main_arg11 : FVec F S256 .f32) (main_arg12 : FVec F S256x1 .f32) (main_arg13 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S512x256 .f32 := Host.absf main_arg10
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1 .f32 := Host.absf main_arg12
  let main_cst_18 : FVec F S_ .f32 := constant S_ .f32 0x7F800000#32
  let main_v50 : FVec F S256x1 .f32 := broadcastInDim S256x1 ![] bcast_S_S256x1 main_cst_18
  fn_part3 (F := F) main_arg13 main_v48 main_v49 main_v50

def fn_part1 {F : FTy → Type} [FloatOps F] (main_arg6 : FVec F S256 .f32) (main_arg7 : FVec F S256 .f32) (main_arg8 : FVec F S256 .f32) (main_arg9 : FVec F S256 .f32) (main_arg10 : FVec F S512x256 .f32) (main_arg11 : FVec F S256 .f32) (main_arg12 : FVec F S256x1 .f32) (main_arg13 : FVec F S1 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x256 .f32) (main_arg1 : FVec F S100000x256 .f32) (main_arg2 : FVec F S20000x256 .f32) (main_arg3 : FVec F S1x256 .f32) (main_arg4 : IVec S500000 32) (main_arg5 : IVec S500000 32) (main_arg6 : FVec F S256 .f32) (main_arg7 : FVec F S256 .f32) (main_arg8 : FVec F S256 .f32) (main_arg9 : FVec F S256 .f32) (main_arg10 : FVec F S512x256 .f32) (main_arg11 : FVec F S256 .f32) (main_arg12 : FVec F S256x1 .f32) (main_arg13 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S20000x256 .f32 := Host.absf main_arg2
  let main_cst_2 : FVec F S_ .f32 := constant S_ .f32 0x7F800000#32
  let main_v10 : FVec F S20000x256 .f32 := broadcastInDim S20000x256 ![] bcast_S_S20000x256 main_cst_2
  let main_v11 : IVec S20000x256 1 := cmpf .olt main_v9 main_v10
  let main_c_3 : IVec S_ 1 := constantI S_ 1 1#1
  let main_v12 : IVec S_ 1 := (fun x v => Host.reduce IntOp.andi x v reducesTo_S20000x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg6 main_arg7 main_arg8 main_arg9 main_arg10 main_arg11 main_arg12 main_arg13 main_v13 main_v16
-- ==== Kernel.lean ====
abbrev S100000x256 : Shape := ⟨2, ![100000, 256]⟩
abbrev S20000x256 : Shape := ⟨2, ![20000, 256]⟩
abbrev S1x256 : Shape := ⟨2, ![1, 256]⟩
abbrev S500000 : Shape := ⟨1, ![500000]⟩
abbrev S256 : Shape := ⟨1, ![256]⟩
abbrev S512x256 : Shape := ⟨2, ![512, 256]⟩
abbrev S256x1 : Shape := ⟨2, ![256, 1]⟩
abbrev S1 : Shape := ⟨1, ![1]⟩
abbrev S100000x1 : Shape := ⟨2, ![100000, 1]⟩
abbrev S4000x256 : Shape := ⟨2, ![4000, 256]⟩
abbrev S4000x1 : Shape := ⟨2, ![4000, 1]⟩
abbrev S4000 : Shape := ⟨1, ![4000]⟩
abbrev S_ : Shape := ⟨0, ![]⟩
abbrev S500000x1 : Shape := ⟨2, ![500000, 1]⟩
abbrev S500000x256 : Shape := ⟨2, ![500000, 256]⟩
abbrev S256x256 : Shape := ⟨2, ![256, 256]⟩
abbrev S20000x1 : Shape := ⟨2, ![20000, 1]⟩
abbrev S2000x256 : Shape := ⟨2, ![2000, 256]⟩
abbrev S2000x1 : Shape := ⟨2, ![2000, 1]⟩
abbrev S2000 : Shape := ⟨1, ![2000]⟩
abbrev S1x1 : Shape := ⟨2, ![1, 1]⟩
abbrev S20000 : Shape := ⟨1, ![20000]⟩

abbrev nBuf : Space → Nat
  | .hbm => 47
  | .vmem => 23
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S20000x256, .f32⟩
  | .hbm, ⟨3, _⟩ => ⟨S1x256, .f32⟩
  | .hbm, ⟨4, _⟩ => ⟨S500000, .i32⟩
  | .hbm, ⟨5, _⟩ => ⟨S500000, .i32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S512x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S100000x256, .f32⟩
  | .hbm, ⟨15, _⟩ => ⟨S100000x1, .f32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x256, .f32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x1, .f32⟩
  | .hbm, ⟨34, _⟩ => ⟨S500000x256, .f32⟩
  | .hbm, ⟨35, _⟩ => ⟨S500000x256, .f32⟩
  | .hbm, ⟨36, _⟩ => ⟨S_, .f32⟩
  | .hbm, ⟨37, _⟩ => ⟨S20000x256, .f32⟩
  | .hbm, ⟨38, _⟩ => ⟨S500000x1, .i32⟩
  | .hbm, ⟨39, _⟩ => ⟨S20000x256, .f32⟩
  | .hbm, ⟨40, _⟩ => ⟨S256x256, .f32⟩
  | .hbm, ⟨41, _⟩ => ⟨S256x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S20000x1, .f32⟩
  | .hbm, ⟨46, _⟩ => ⟨S20000, .f32⟩
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S1x256, .f32⟩
  | .local _ .vmem, ⟨5, _⟩ => ⟨S256, .f32⟩
  | .local _ .vmem, ⟨6, _⟩ => ⟨S256, .f32⟩
  | .local _ .vmem, ⟨7, _⟩ => ⟨S4000x256, .f32⟩
  | .local _ .vmem, ⟨8, _⟩ => ⟨S4000x256, .f32⟩
  | .local _ .vmem, ⟨9, _⟩ => ⟨S4000x1, .f32⟩
  | .local _ .vmem, ⟨10, _⟩ => ⟨S4000x1, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256, .f32⟩
  | .local _ .vmem, ⟨16, _⟩ => ⟨S256, .f32⟩
  | .local _ .vmem, ⟨17, _⟩ => ⟨S256x256, .f32⟩
  | .local _ .vmem, ⟨18, _⟩ => ⟨S1x256, .f32⟩
  | .local _ .vmem, ⟨19, _⟩ => ⟨S256x1, .f32⟩
  | .local _ .vmem, ⟨20, _⟩ => ⟨S1, .f32⟩
  | .local _ .vmem, ⟨21, _⟩ => ⟨S2000x1, .f32⟩
  | .local _ .vmem, ⟨22, _⟩ => ⟨S2000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S4000x256_S4000x256_0_0 : ∀ a, (![0, 0] : Fin 2 → Nat) a + S4000x256.size a ≤ S4000x256.size a
  h_S4000x256 : 0 < S4000x256.numel
  reduces_S4000x256_S4000 : S4000x256.Reduces [1] S4000
  shapeCasts_S4000_S4000x1 : S4000.ShapeCasts S4000x1
  broadcasts_S4000x1_S4000x256 : S4000x1.Broadcasts S4000x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S4000x1_S4000x1_0_0 : ∀ a, (![0, 0] : Fin 2 → Nat) a + S4000x1.size a ≤ S4000x1.size a
  h_S4000x1 : 0 < S4000x1.numel
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S20000x256 : S_.BroadcastsInDim S20000x256 (![] : Fin 0 → Fin S20000x256.rank)
  slices_S512x256_S256x256_0_0 : S512x256.Slices ![0, 0] S256x256
  slices_S512x256_S256x256_256_0 : S512x256.Slices ![256, 0] S256x256
  bcast_S256_S1x256_1 : S256.BroadcastsInDim S1x256 (![1] : Fin 1 → Fin S1x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  reduces_S2000x256_S2000 : S2000x256.Reduces [1] S2000
  shapeCasts_S2000_S2000x1 : S2000.ShapeCasts S2000x1
  broadcasts_S2000x1_S2000x256 : S2000x1.Broadcasts S2000x256
  broadcasts_S1x256_S2000x256 : S1x256.Broadcasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S20000x1_S20000 : S20000x1.ShapeCasts S20000
  gather_S100000x256_S500000x1_S500000x256_1_0_n_n_0_1_1256_wf : GatherDims.WF S100000x256 S500000x1 S500000x256 [1] [0] [] [0] [] 1 ![1, 256]
  gather_S100000x1_S500000x1_S500000x1_1_0_n_n_0_1_11_wf : GatherDims.WF S100000x1 S500000x1 S500000x1 [1] [0] [] [0] [] 1 ![1, 1]
  scatter_S20000x256_S500000x1_S500000x256_1_0_0_1_wf : ScatterDims.WF S20000x256 S500000x1 S500000x256 [1] [0] [0] 1
  dot_S1x256_S256x256_S1x256_1_0_0_1_n_n_wf : DotDims.WF S1x256 S256x256 S1x256 [1] [0] [0] [1] [] []
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S100000x256.size a
  hwx0_1 : ∀ i : grid0.Coords, EltTy.bits .f32 = 32 ∨ (Rect.block (s := S100000x256) S4000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S100000x256.size a
  hwx0_5 : ∀ i : grid0.Coords, EltTy.bits .f32 = 32 ∨ (Rect.block (s := S100000x256) S4000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x1.size a ≤ S100000x1.size a
  hwx0_6 : ∀ i : grid0.Coords, EltTy.bits .f32 = 32 ∨ (Rect.block (s := S100000x1) S4000x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S256x1.size a
  hwx1_6 : ∀ i : grid1.Coords, EltTy.bits .f32 = 32 ∨ (Rect.block (s := S256x1) S256x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x1.size a ≤ S20000x1.size a
  hwx1_8 : ∀ i : grid1.Coords, EltTy.bits .f32 = 32 ∨ (Rect.block (s := S20000x1) S2000x1.size (cc1_transform_8 i) (hinb1_8 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def gather_S100000x1_S500000x1_S500000x1_1_0_n_n_0_1_11 : GatherDims S100000x1 S500000x1 S500000x1 where
  offsetDims := [1]
  collapsedSliceDims := [0]
  operandBatchingDims := []
  startIndicesBatchingDims := []
  startIndexMap := [0]
  indexVectorDim := 1
  sliceSizes := ![1, 1]
  wf := gather_S100000x1_S500000x1_S500000x1_1_0_n_n_0_1_11_wf
def scatter_S20000x256_S500000x1_S500000x256_1_0_0_1 : ScatterDims S20000x256 S500000x1 S500000x256 where
  updateWindowDims := [1]
  insertedWindowDims := [0]
  scatterDimsToOperandDims := [0]
  indexVectorDim := 1
  wf := scatter_S20000x256_S500000x1_S500000x256_1_0_0_1_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S4000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S4000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S256x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S2000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x256 : Shape := ⟨2, ![100000, 256]⟩
abbrev S20000x256 : Shape := ⟨2, ![20000, 256]⟩
abbrev S1x256 : Shape := ⟨2, ![1, 256]⟩
abbrev S500000 : Shape := ⟨1, ![500000]⟩
abbrev S256 : Shape := ⟨1, ![256]⟩
abbrev S512x256 : Shape := ⟨2, ![512, 256]⟩
abbrev S256x1 : Shape := ⟨2, ![256, 1]⟩
abbrev S1 : Shape := ⟨1, ![1]⟩
abbrev S_ : Shape := ⟨0, ![]⟩
abbrev S100000 : Shape := ⟨1, ![100000]⟩
abbrev S100000x1 : Shape := ⟨2, ![100000, 1]⟩
abbrev S500000x1 : Shape := ⟨2, ![500000, 1]⟩
abbrev S500000x256 : Shape := ⟨2, ![500000, 256]⟩
abbrev S20000 : Shape := ⟨1, ![20000]⟩
abbrev S20000x1 : Shape := ⟨2, ![20000, 1]⟩
abbrev S20000x512 : Shape := ⟨2, ![20000, 512]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S100000x256, .f32⟩
  | 1 => ⟨S100000x256, .f32⟩
  | 2 => ⟨S20000x256, .f32⟩
  | 3 => ⟨S1x256, .f32⟩
  | 4 => ⟨S500000, .i32⟩
  | 5 => ⟨S500000, .i32⟩
  | 6 => ⟨S256, .f32⟩
  | 7 => ⟨S256, .f32⟩
  | 8 => ⟨S256, .f32⟩
  | 9 => ⟨S256, .f32⟩
  | 10 => ⟨S512x256, .f32⟩
  | 11 => ⟨S256, .f32⟩
  | 12 => ⟨S256x1, .f32⟩
  | 13 => ⟨S1, .f32⟩
  | 14 => ⟨S_, .f32⟩
  | 15 => ⟨S100000x256, .f32⟩
  | 16 => ⟨S100000x256, .f32⟩
  | 17 => ⟨S_, .f32⟩
  | 18 => ⟨S100000x256, .f32⟩
  | 19 => ⟨S100000x256, .f32⟩
  | 20 => ⟨S100000x256, .f32⟩
  | 21 => ⟨S_, .f32⟩
  | 22 => ⟨S100000, .f32⟩
  | 23 => ⟨S100000x1, .f32⟩
  | 24 => ⟨S_, .f32⟩
  | 25 => ⟨S100000x1, .f32⟩
  | 26 => ⟨S100000x1, .f32⟩
  | 27 => ⟨S100000x256, .f32⟩
  | 28 => ⟨S100000x256, .f32⟩
  | 29 => ⟨S100000x256, .f32⟩
  | 30 => ⟨S_, .f32⟩
  | 31 => ⟨S100000, .f32⟩
  | 32 => ⟨S100000x1, .f32⟩
  | 33 => ⟨S_, .f32⟩
  | 34 => ⟨S100000x1, .f32⟩
  | 35 => ⟨S100000x1, .f32⟩
  | 36 => ⟨S100000x256, .f32⟩
  | 37 => ⟨S100000x256, .f32⟩
  | 38 => ⟨S_, .f32⟩
  | 39 => ⟨S100000x1, .f32⟩
  | 40 => ⟨S100000x1, .f32⟩
  | 41 => ⟨S100000x1, .f32⟩
  | 42 => ⟨S100000x256, .f32⟩
  | 43 => ⟨S100000x256, .f32⟩
  | 44 => ⟨S1x256, .f32⟩
  | 45 => ⟨S100000x256, .f32⟩
  | 46 => ⟨S100000x256, .f32⟩
  | 47 => ⟨S1x256, .f32⟩
  | 48 => ⟨S100000x256, .f32⟩
  | 49 => ⟨S100000x256, .f32⟩
  | 50 => ⟨S100000x256, .f32⟩
  | 51 => ⟨S100000x256, .f32⟩
  | 52 => ⟨S_, .f32⟩
  | 53 => ⟨S100000, .f32⟩
  | 54 => ⟨S100000, .f32⟩
  | 55 => ⟨S100000, .f32⟩
  | 56 => ⟨S_, .f32⟩
  | 57 => ⟨S100000, .f32⟩
  | 58 => ⟨S100000, .f32⟩
  | 59 => ⟨S_, .f32⟩
  | 60 => ⟨S100000, .f32⟩
  | 61 => ⟨S100000, .f32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x256, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000, .f32⟩
  | 80 => ⟨S500000x1, .f32⟩
  | 81 => ⟨S500000x256, .f32⟩
  | 82 => ⟨S500000x256, .f32⟩
  | 83 => ⟨S_, .f32⟩
  | 84 => ⟨S20000x256, .f32⟩
  | 85 => ⟨S500000x1, .i32⟩
  | 86 => ⟨S20000x256, .f32⟩
  | 87 => ⟨S20000x256, .f32⟩
  | 88 => ⟨S_, .f32⟩
  | 89 => ⟨S20000, .f32⟩
  | 90 => ⟨S20000x1, .f32⟩
  | 91 => ⟨S_, .f32⟩
  | 92 => ⟨S20000x1, .f32⟩
  | 93 => ⟨S20000x1, .f32⟩
  | 94 => ⟨S20000x256, .f32⟩
  | 95 => ⟨S20000x256, .f32⟩
  | 96 => ⟨S20000x256, .f32⟩
  | 97 => ⟨S_, .f32⟩
  | 98 => ⟨S20000, .f32⟩
  | 99 => ⟨S20000x1, .f32⟩
  | 100 => ⟨S_, .f32⟩
  | 101 => ⟨S20000x1, .f32⟩
  | 102 => ⟨S20000x1, .f32⟩
  | 103 => ⟨S20000x256, .f32⟩
  | 104 => ⟨S20000x256, .f32⟩
  | 105 => ⟨S_, .f32⟩
  | 106 => ⟨S20000x1, .f32⟩
  | 107 => ⟨S20000x1, .f32⟩
  | 108 => ⟨S20000x1, .f32⟩
  | 109 => ⟨S20000x256, .f32⟩
  | 110 => ⟨S20000x256, .f32⟩
  | 111 => ⟨S1x256, .f32⟩
  | 112 => ⟨S20000x256, .f32⟩
  | 113 => ⟨S20000x256, .f32⟩
  | 114 => ⟨S1x256, .f32⟩
  | 115 => ⟨S20000x256, .f32⟩
  | 116 => ⟨S20000x256, .f32⟩
  | 117 => ⟨S20000x256, .f32⟩
  | 118 => ⟨S20000x512, .f32⟩
  | 119 => ⟨S20000x256, .f32⟩
  | 120 => ⟨S1x256, .f32⟩
  | 121 => ⟨S20000x256, .f32⟩
  | 122 => ⟨S20000x256, .f32⟩
  | 123 => ⟨S_, .f32⟩
  | 124 => ⟨S20000x256, .f32⟩
  | 125 => ⟨S20000x256, .f32⟩
  | 126 => ⟨S20000x1, .f32⟩
  | 127 => ⟨S1x1, .f32⟩
  | _ => ⟨S100000x256, .f32⟩

abbrev hbmTy0_1 (i : Nat) : BufTy := match i % 128 with
  | 0 => ⟨S20000x1, .f32⟩
  | 1 => ⟨S20000x1, .f32⟩
  | 2 => ⟨S20000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_c : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_17 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_call0_cst : Ref sig .tc := ⟨.hbm, 123, rfl⟩
abbrev main_call0_v0 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  bcast_S_S100000x256 : S_.BroadcastsInDim S100000x256 (![] : Fin 0 → Fin S100000x256.rank)
  reducesTo_S100000x256_S100000_d1 : S100000x256.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000 : S_.BroadcastsInDim S100000 (![] : Fin 0 → Fin S100000.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S20000x256 : S_.BroadcastsInDim S20000x256 (![] : Fin 0 → Fin S20000x256.rank)
  reducesTo_S20000x256_S20000_d1 : S20000x256.ReducesTo [1] S20000
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  bcast_S1x256_S20000x256_0_1 : S1x256.BroadcastsInDim S20000x256 (![0, 1] : Fin 2 → Fin S20000x256.rank)
  concatenates_S20000x256_S20000x256_S20000x512_d1 : Shape.Concatenates [S20000x256, S20000x256] S20000x512 1
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  shapeCasts_S20000x1_S20000 : S20000x1.ShapeCasts S20000
  gather_S100000x256_S500000x1_S500000x256_1_0_n_n_0_1_1256_wf : GatherDims.WF S100000x256 S500000x1 S500000x256 [1] [0] [] [0] [] 1 ![1, 256]
  gather_S100000_S500000x1_S500000_n_0_n_n_0_1_1_wf : GatherDims.WF S100000 S500000x1 S500000 [] [0] [] [0] [] 1 ![1]
  scatter_S20000x256_S500000x1_S500000x256_1_0_0_1_wf : ScatterDims.WF S20000x256 S500000x1 S500000x256 [1] [0] [0] 1
  dot_S20000x512_S512x256_S20000x256_1_0_0_1_n_n_wf : DotDims.WF S20000x512 S512x256 S20000x256 [1] [0] [0] [1] [] []
  dot_S20000x256_S256x1_S20000x1_1_0_0_1_n_n_wf : DotDims.WF S20000x256 S256x1 S20000x1 [1] [0] [0] [1] [] []

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def scatter_S20000x256_S500000x1_S500000x256_1_0_0_1 : ScatterDims S20000x256 S500000x1 S500000x256 where
  updateWindowDims := [1]
  insertedWindowDims := [0]
  scatterDimsToOperandDims := [0]
  indexVectorDim := 1
  wf := scatter_S20000x256_S500000x1_S500000x256_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x256_S256x1_S20000x1_1_0_0_1_n_n : DotDims S20000x256 S256x1 S20000x1 where
  lhsContracting := [1]
  rhsContracting := [0]
  lhsNonContracting := [0]
  rhsNonContracting := [1]
  lhsBatch := []
  rhsBatch := []
  wf := dot_S20000x256_S256x1_S20000x1_1_0_0_1_n_n_wf

class Facts : Prop extends Facts₀ where

variable [Facts]
-- ==== Proof.KernelRun.lean ====
/-
  The idealized kernel's run with its result named.

  The program is two kernel regions among stretches of host operations.  Its buffers' contents at the return are the
  fold of the segments over the launch memory; every weakly fair execution terminates with the result array at that
  fold's value and the arguments as launched.  The argument is the one that gives the frame — the launch over the
  segments, the last thread state read against the final state — with the result's buffer read as well.
-/
import proofs.«110260_j21887153340681_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the value the
    fold of its segments gives it, and the argument arrays as launched. -/
theorem run_result : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Result

end
-- ==== Proof.Context.lean ====
/-
  The host operations between the two kernel regions, as functions of the arrays they read.

  Between the regions the program gathers, for each of the 500000 edges, the entity's feature row and its gate,
  multiplies the two, and sums the products into the edge's passage row (the aggregated context); it takes the upper
  256 rows of the first layer's weights, and forms the query's share of the hidden layer's input from the lower 256
  rows: the query row times those rows, plus the first bias.
-/
import proofs.«110260_j21887153340681_1_alg».proof.Proof.Gen.KernelIdeal.Launch
import Idealize.ShloMosaic.PureOps.Ideal

noncomputable section

namespace Cert.KernelIdeal.Fold

open Cert.KernelIdeal Cert.KernelIdeal.Gen Idealize.ShloMosaic Idealize.ShloMosaic.TcCoe

/-- The start indices of both gathers: a negative position counts from the end (100000 is added to it), and the
    positions become a 500000×1 column. -/
def wrapIdx (e : IVec S500000 32) : IVec S500000x1 32 :=
  broadcastInDim S500000x1 ![0] bcast_S500000_S500000x1_0
    (select (cmpi .slt e (broadcastInDim S500000 ![] bcast_S_S500000 (constantI S_ 32 0#32)))
      (addi e (broadcastInDim S500000 ![] bcast_S_S500000 (constantI S_ 32 100000#32))) e)

/-- The aggregated context: each edge's gathered feature row times its gathered gate, summed into the edge's passage row. -/
def ctxArr (H : FVec Ideal S100000x256 .f32) (G : FVec Ideal S100000x1 .f32) (e p : IVec S500000 32) : FVec Ideal S20000x256 .f32 :=
  Host.scatterAdd (F := Ideal) scatter_S20000x256_S500000x1_S500000x256_1_0_0_1
    (broadcastInDim S20000x256 ![] bcast_S_S20000x256 (constant (F := Ideal) S_ .f32 0x00000000#32))
    (broadcastInDim S500000x1 ![0] bcast_S500000_S500000x1_0 p)
    (mulf (F := Ideal) (Host.gather gather_S100000x256_S500000x1_S500000x256_1_0_n_n_0_1_1256 H (wrapIdx e))
      (broadcastInDim S500000x256 ![0, 1] bcast_S500000x1_S500000x256_0_1
        (Host.gather gather_S100000x1_S500000x1_S500000x1_1_0_n_n_0_1_11 G (wrapIdx e))))

/-- The query's share of the hidden layer's input, as the 1×256 row the passage region is handed. -/
def qbArr (A3 : FVec Ideal S1x256 .f32) (A10 : FVec Ideal S512x256 .f32) (A11 : FVec Ideal S256 .f32) : FVec Ideal S1x256 .f32 :=
  addf (F := Ideal) (Host.dotGeneral (F := Ideal) dot_S1x256_S256x256_S1x256_1_0_0_1_n_n none A3
      (extractStridedSlice S256x256 ![256, 0] A10 slices_S512x256_S256x256_256_0))
    (broadcastInDim S1x256 ![1] bcast_S256_S1x256_1 A11)

/-- The upper 256 rows of the first layer's weights, as the passage region is handed them. -/
def wtopArr (A10 : FVec Ideal S512x256 .f32) : FVec Ideal S256x256 .f32 :=
  extractStridedSlice S256x256 ![0, 0] A10 slices_S512x256_S256x256_0_0

end Cert.KernelIdeal.Fold

end
-- ==== Proof.Spec.lean ====
/-
  The mathematics both programs compute, one row at a time, on the extended reals.

  A row `x` of 256 entries is normalised: its mean is `(∑ x) / 256`, its variance the mean of the squared
  deviations, and the normalised row is `(x − mean) · rsqrt(var + ε) · γ + β`.  An entity row is the normalised
  blend `0.9·u + 0.1·v` of its two feature rows; its gate is the logistic of its inner product with the query.
  A passage row is the normalised sum of its feature row and its aggregated context; its score is a two-layer
  head: `max(h·W + qb, 0)·w₂ + b₂`.  The float words `0.9`, `0.1`, `256`, `ε` and `0` stay the words both
  programs carry: they are never evaluated.
-/
import Idealize.ShloMosaic.PureOps.Ideal
import Idealize.ShloMosaic.PureOps.Ideal.Laws

noncomputable section

namespace Cert.Score

open Idealize.ShloMosaic

/-- The divisor 256 of a row's mean, as the float word. -/
def n256 : EReal := Ideal.ofBits .f32 0x43800000#32
/-- The variance offset ε, as the float word. -/
def eps : EReal := Ideal.ofBits .f32 0x3727C5AC#32
/-- The blend weights, as the float words. -/
def wLocal : EReal := Ideal.ofBits .f32 0x3F666666#32
def wGlobal : EReal := Ideal.ofBits .f32 0x3DCCCCCD#32
/-- The float word of zero (the floor of the rectifier). -/
def zeroW : EReal := Ideal.ofBits .f32 0x00000000#32

/-- The mean of a row of 256 entries. -/
def mean (x : Fin 256 → EReal) : EReal := Ideal.div (∑ k : Fin 256, x k) n256

/-- A row minus its mean. -/
def centred (x : Fin 256 → EReal) (k : Fin 256) : EReal := x k - mean x

/-- The reciprocal standard deviation `rsqrt(var + ε)` of a row. -/
def invStd (x : Fin 256 → EReal) : EReal :=
  Ideal.rsqrt (mean (fun k => centred x k * centred x k) + eps)

/-- Layer normalisation of a row with scale `g` and shift `b`. -/
def layerNorm (x g b : Fin 256 → EReal) (q : Fin 256) : EReal :=
  centred x q * invStd x * g q + b q

/-- The blend of a local and a global feature row. -/
def blend (u v : Fin 256 → EReal) (k : Fin 256) : EReal := wLocal * u k + wGlobal * v k

/-- An entity's normalised features. -/
def entRow (u v g b : Fin 256 → EReal) : Fin 256 → EReal := layerNorm (blend u v) g b

/-- The relevance gate of a normalised row against the query: the logistic of their inner product. -/
def gate (h qv : Fin 256 → EReal) : EReal := Ideal.logistic (∑ k : Fin 256, h k * qv k)

/-- A passage's normalised features: its own row plus its context row, normalised. -/
def psgRow (x ctx g b : Fin 256 → EReal) : Fin 256 → EReal := layerNorm (fun k => x k + ctx k) g b

/-- The hidden layer at unit `j`: the rectified `h·W[:,j] + qb j`. -/
def hidden (h : Fin 256 → EReal) (W : Fin 256 → Fin 256 → EReal) (qb : Fin 256 → EReal) (j : Fin 256) : EReal :=
  max ((∑ k : Fin 256, h k * W k j) + qb j) zeroW

/-- The query's share of the hidden layer's input at unit `j`: `q·W'[:,j] + b₁ j`. -/
def queryBias (qv : Fin 256 → EReal) (W' : Fin 256 → Fin 256 → EReal) (b1 : Fin 256 → EReal) (j : Fin 256) : EReal :=
  (∑ k : Fin 256, qv k * W' k j) + b1 j

/-- The score: the hidden layer against the output weights, plus the output bias. -/
def score (hid w2 : Fin 256 → EReal) (b2 : EReal) : EReal := (∑ j : Fin 256, hid j * w2 j) + b2

/-- The upper and the lower 256 rows of a 512-row weight matrix. -/
def topRows (W : Fin 512 → Fin 256 → EReal) (k j : Fin 256) : EReal := W ⟨k.val, by omega⟩ j
def botRows (W : Fin 512 → Fin 256 → EReal) (k j : Fin 256) : EReal := W ⟨256 + k.val, by omega⟩ j

end Cert.Score

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibRowOps.lean ====
/-
  Row statistics of a matrix, read at an entry, on the extended reals.

  For an R×D matrix `P`: the sum along each row (a lane reduction with `add`) at row `p` is  Σ_k P(p,k); the
  maximum along each row at row `p` is the fold of `max` over  k ↦ P(p,k)  from the starting value; the same for a
  host-side maximum over the columns. The pointwise square root, exponential and logarithm read at an entry.
-/
import proofs.«110260_j21887153340681_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx Cert.LibColumn

variable {R D : ℕ}

/-- Inserting the column coordinate `k` into the row index `p` gives the entry `(p, k)`. -/
theorem lift_ix1 (h : (⟨2, ![R, D]⟩ : Shape).Reduces [1] ⟨1, ![R]⟩) (p : Fin R) (k : Fin D) :
    h.lift (ix1 p) k = ix2 p k := by
  funext c
  apply Fin.ext
  show h.liftVal (ix1 p) k.val c = _
  unfold Shape.Reduces.liftVal
  match c with
  | ⟨0, _⟩ => simp
  | ⟨1, _⟩ => simp

/-- A row sum at row `p` is the sum of the row's entries. -/
theorem rowSum_apply {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ) (p : Fin R) :
    multiReduction .add [1] ⟨1, ![R]⟩ src acc h hφ hacc (ix1 p) = ∑ k : Fin D, src (ix2 p k) := by
  rw [Ideal.multiReduction_add_single]
  exact Finset.sum_congr rfl fun k _ => congrArg src (lift_ix1 h p k)

/-- A row maximum at row `p` is the fold of `max` over the row's entries, from the starting value. -/
theorem rowMax_apply {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ) (p : Fin R) :
    multiReduction .maximumf [1] ⟨1, ![R]⟩ src acc h hφ hacc (ix1 p)
      = (Finset.univ : Finset (Fin D)).fold max (Ideal.ofBits φ acc) (fun k => src (ix2 p k)) := by
  rw [Ideal.multiReduction_maximumf_single]
  exact congrArg (Finset.fold max _ · _) (funext fun k => congrArg src (lift_ix1 h p k))

/-- A host-side row maximum (a one-operand reduce with `max` over the columns) at row `p`: the fold of `max` over the
    row's entries from the initial value. -/
theorem hostRowMax (U : FVec Ideal ⟨2, ![R, D]⟩ .f32) {u : Shape} (init : u.Idx → Ideal .f32)
    (h' : (⟨2, ![R, D]⟩ : Shape).ReducesTo [1] ⟨1, ![R]⟩) (h : (⟨2, ![R, D]⟩ : Shape).Reduces [1] ⟨1, ![R]⟩) (hu : 0 < u.numel) (p : Fin R) :
    Host.reduce (FloatOps.maximumf (F := Ideal) (φ := .f32)) U init h' hu (ix1 p)
      = (Finset.univ : Finset (Fin D)).fold max (init (Shape.Idx.first hu)) (fun k => U (ix2 p k)) := by
  rw [Host.reduce_eq_fold_single _ _ _ _ h]
  exact congrArg (Finset.fold max _ · _) (funext fun k => congrArg U (lift_ix1 h p k))

/-- The pointwise square root, exponential and logarithm read at an entry. -/
theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

end Cert.LibRowOps

end
-- ==== Proof.EntityBody.lean ====
/-
  The entity kernel's two stored values, read at an entry.

  The body blends its two feature blocks, normalises each row of the blend (mean, centring, variance, reciprocal
  standard deviation, scale and shift) and stores the result; it then takes each normalised row's inner product with
  the query row and stores the logistic of it.  Read at row p (and column q), the first stored value is the
  specification's normalised entity row at q, and the second the specification's gate of that row against the query.
-/
import proofs.«110260_j21887153340681_1_alg».proof.Proof.Gen.KernelIdeal.Skeleton
import proofs.«110260_j21887153340681_1_alg».proof.Proof.Spec
import proofs.«110260_j21887153340681_1_alg».proof.Proof.LibColumn
import proofs.«110260_j21887153340681_1_alg».proof.Proof.LibRowOps
import Idealize.ShloMosaic.Lib.ValueIdx
import Idealize.ShloMosaic.Lib.ValueLayout
import Idealize.ShloMosaic.Lib.Pipeline.Value

noncomputable section

namespace Cert.Score.EntityBody

open Idealize.ShloMosaic Idealize.ShloMosaic.ValueIdx Cert.KernelIdeal Cert.KernelIdeal.Gen

/-- The column of row means of a 4000×256 matrix: the row sums, as a 4000×1 column, divided by the word 256. -/
def meanCol (X : FVec Ideal S4000x256 .f32) : FVec Ideal S4000x1 .f32 :=
  divf (shapeCast S4000x1 (multiReduction .add [1] S4000 X 0x00000000#32 reduces_S4000x256_S4000 (.inl rfl) rfl)
      shapeCasts_S4000_S4000x1)
    (broadcast S4000x1 (Scalar.ofBits .f32 0x43800000#32))

/-- The column of row means at row `p` is the mean of row `p`. -/
theorem meanCol_apply (X : FVec Ideal S4000x256 .f32) (p : Fin 4000) (u : Fin 1) :
    meanCol X (ix2 p u) = Cert.Score.mean (fun k => X (ix2 p k)) := by
  unfold meanCol Cert.Score.mean Cert.Score.n256
  rw [divf_apply, broadcast_apply]
  refine congrArg (fun t => Ideal.div t _) ?_
  refine (Cert.LibColumn.shapeCast_a_a1_apply _ _ p u).trans ?_
  exact Cert.LibRowOps.rowSum_apply X _ _ _ _ p

/-- A matrix minus its column of row means, spread over the columns. -/
def centredMat (X : FVec Ideal S4000x256 .f32) : FVec Ideal S4000x256 .f32 :=
  subf X (broadcastTo S4000x256 (meanCol X) broadcasts_S4000x1_S4000x256)

/-- The centred matrix at `(p, q)` is row `p` minus its mean, at `q`. -/
theorem centredMat_apply (X : FVec Ideal S4000x256 .f32) (p : Fin 4000) (q : Fin 256) :
    centredMat X (ix2 p q) = Cert.Score.centred (fun k => X (ix2 p k)) q := by
  unfold centredMat Cert.Score.centred
  rw [subf_apply]
  refine congrArg (fun t => X (ix2 p q) - t) ?_
  refine (Cert.LibColumn.broadcastTo_a1_ab_apply _ _ p q).trans ?_
  exact meanCol_apply X p 0

/-- The column of reciprocal standard deviations: the mean of the squared deviations, plus ε, under `rsqrt`. -/
def invStdCol (X : FVec Ideal S4000x256 .f32) : FVec Ideal S4000x1 .f32 :=
  rsqrt (addf (meanCol (mulf (centredMat X) (centredMat X))) (broadcast S4000x1 (Scalar.ofBits .f32 0x3727C5AC#32)))

/-- The column of reciprocal standard deviations at row `p` is that of row `p`. -/
theorem invStdCol_apply (X : FVec Ideal S4000x256 .f32) (p : Fin 4000) (u : Fin 1) :
    invStdCol X (ix2 p u) = Cert.Score.invStd (fun k => X (ix2 p k)) := by
  unfold invStdCol Cert.Score.invStd Cert.Score.eps
  show Ideal.rsqrt (meanCol (mulf (centredMat X) (centredMat X)) (ix2 p u) + Ideal.ofBits .f32 0x3727C5AC#32) = _
  refine congrArg (fun t => Ideal.rsqrt (t + _)) ?_
  refine (meanCol_apply _ p u).trans ?_
  refine congrArg Cert.Score.mean (funext fun k => ?_)
  rw [mulf_apply, centredMat_apply]

/-- The kernel's blend of its two feature blocks. -/
def blendMat (v0 v3 : Vec Ideal S4000x256 .f32) : FVec Ideal S4000x256 .f32 :=
  addf (mulf (broadcast S4000x256 (Scalar.ofBits .f32 0x3F666666#32)) v0)
    (mulf (broadcast S4000x256 (Scalar.ofBits .f32 0x3DCCCCCD#32)) v3)

/-- The blend at `(p, k)` is the blend of the two rows `p`, at `k`. -/
theorem blendMat_apply (v0 v3 : Vec Ideal S4000x256 .f32) (p : Fin 4000) (k : Fin 256) :
    blendMat v0 v3 (ix2 p k) = Cert.Score.blend (fun k => v0 (ix2 p k)) (fun k => v3 (ix2 p k)) k := rfl

/-- A length-256 vector as a 1×256 row spread over the 4000 rows reads, at `(p, q)`, the vector at `q`. -/
theorem rowBcast_apply (g : Vec Ideal S256 .f32) (p : Fin 4000) (q : Fin 256) :
    broadcastTo S4000x256 (shapeCast S1x256 g shapeCasts_S256_S1x256) broadcasts_S1x256_S4000x256 (ix2 p q)
      = g (ix1 q) :=
  (broadcastTo_1b_ab_apply _ _ p q).trans (shapeCast_a_1a_apply g _ 0 q)

/-- Row normalisation of a matrix with scale vector `g` and shift vector `b`, as the kernel computes it. -/
def normMat (X : FVec Ideal S4000x256 .f32) (g b : Vec Ideal S256 .f32) : FVec Ideal S4000x256 .f32 :=
  addf (mulf (mulf (centredMat X) (broadcastTo S4000x256 (invStdCol X) broadcasts_S4000x1_S4000x256))
      (broadcastTo S4000x256 (shapeCast S1x256 g shapeCasts_S256_S1x256) broadcasts_S1x256_S4000x256))
    (broadcastTo S4000x256 (shapeCast S1x256 b shapeCasts_S256_S1x256) broadcasts_S1x256_S4000x256)

/-- The normalised matrix at `(p, q)` is the layer normalisation of row `p`, at `q`. -/
theorem normMat_apply (X : FVec Ideal S4000x256 .f32) (g b : Vec Ideal S256 .f32) (p : Fin 4000) (q : Fin 256) :
    normMat X g b (ix2 p q)
      = Cert.Score.layerNorm (fun k => X (ix2 p k)) (fun k => g (ix1 k)) (fun k => b (ix1 k)) q := by
  unfold normMat Cert.Score.layerNorm
  rw [addf_apply, mulf_apply, mulf_apply, rowBcast_apply, rowBcast_apply, centredMat_apply]
  refine congrArg (fun t => Cert.Score.centred (fun k => X (ix2 p k)) q * t * g (ix1 q) + b (ix1 q)) ?_
  exact (Cert.LibColumn.broadcastTo_a1_ab_apply _ _ p q).trans (invStdCol_apply X p 0)

/-- The first stored value is the row normalisation of the blend. -/
theorem pay1_eq (v0 v3 : Vec Ideal S4000x256 .f32) (v23 v27 : Vec Ideal S256 .f32) :
    k0_pay1 (F := Ideal) v0 v3 v23 v27 = normMat (blendMat v0 v3) v23 v27 := rfl

/-- The first stored value at `(p, q)`: the normalised entity row `p`, at `q`. -/
theorem features_apply (v0 v3 : Vec Ideal S4000x256 .f32) (v23 v27 : Vec Ideal S256 .f32) (p : Fin 4000) (q : Fin 256) :
    k0_pay1 (F := Ideal) v0 v3 v23 v27 (ix2 p q)
      = Cert.Score.entRow (fun k => v0 (ix2 p k)) (fun k => v3 (ix2 p k)) (fun k => v23 (ix1 k)) (fun k => v27 (ix1 k)) q := by
  rw [pay1_eq]
  exact normMat_apply (blendMat v0 v3) v23 v27 p q

/-- The second stored value is the logistic of the row sums of the first against the query row. -/
theorem pay2_eq (v0 v3 : Vec Ideal S4000x256 .f32) (v23 v27 : Vec Ideal S256 .f32) (v32 : Vec Ideal S1x256 .f32) :
    k0_pay2 (F := Ideal) v0 v3 v23 v27 v32
      = logistic (shapeCast S4000x1
          (multiReduction .add [1] S4000
            (mulf (k0_pay1 (F := Ideal) v0 v3 v23 v27)
              (broadcastTo S4000x256 (shapeCast S1x256 v32 shapeCasts_S1x256_S1x256) broadcasts_S1x256_S4000x256))
            0x00000000#32 reduces_S4000x256_S4000 (.inl rfl) rfl)
          shapeCasts_S4000_S4000x1) := rfl

/-- The second stored value at `(p, 0)`: the gate of the normalised entity row `p` against the query row. -/
theorem gate_apply (v0 v3 : Vec Ideal S4000x256 .f32) (v23 v27 : Vec Ideal S256 .f32) (v32 : Vec Ideal S1x256 .f32) (p : Fin 4000) (u : Fin 1) :
    k0_pay2 (F := Ideal) v0 v3 v23 v27 v32 (ix2 p u)
      = Cert.Score.gate (Cert.Score.entRow (fun k => v0 (ix2 p k)) (fun k => v3 (ix2 p k)) (fun k => v23 (ix1 k)) (fun k => v27 (ix1 k))) (fun k => v32 (ix2 (0 : Fin 1) k)) := by
  rw [pay2_eq]
  unfold Cert.Score.gate
  show Ideal.logistic _ = _
  refine congrArg Ideal.logistic ?_
  refine (Cert.LibColumn.shapeCast_a_a1_apply _ _ p u).trans ?_
  refine (Cert.LibRowOps.rowSum_apply _ _ _ _ _ p).trans ?_
  refine Finset.sum_congr rfl fun k _ => ?_
  rw [mulf_apply, features_apply]
  refine congrArg (fun t => Cert.Score.entRow (fun k => v0 (ix2 p k)) (fun k => v3 (ix2 p k)) (fun k => v23 (ix1 k)) (fun k => v27 (ix1 k)) k * t) ?_
  refine (broadcastTo_1b_ab_apply _ _ p k).trans ?_
  rw [shapeCast_self]

end Cert.Score.EntityBody

end
-- ==== Proof.Blocks0.lean ====
/-
  The entity region's two output arrays as whole-array functions of the arrays the region finds.

  The region walks 25 blocks of 4000 rows.  Block `t` of each row-indexed window starts at row `4000·t`; the query
  row, the scale and the shift are whole at every point.  So what point `t` writes back — the body's value at
  (p, q) of its loaded blocks — is the entity function of rows `4000·t + p` of the two feature arrays; the 25 blocks
  tile the 100000 rows, and each output array ends as that one function of the arrays.
-/
import proofs.«110260_j21887153340681_1_alg».proof.Proof.Gen.KernelIdeal.Frame
import proofs.«110260_j21887153340681_1_alg».proof.Proof.Spec
import proofs.«110260_j21887153340681_1_alg».proof.Proof.EntityBody
import Idealize.ShloMosaic.Lib.Pipeline.Value
import Idealize.ShloMosaic.Lib.ValueIdx

set_option maxRecDepth 16384

noncomputable section

namespace Cert.KernelIdeal.Blocks0

open Cert.KernelIdeal Cert.KernelIdeal.Gen Cert.Score
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The entity features of every row: row `r`, column `q` is the normalised blend of row `r` of the two arrays. -/
def entArr (A0 A1 : S100000x256.Idx → Elt Ideal .f32) (g b : S256.Idx → Elt Ideal .f32) : S100000x256.Idx → Elt Ideal .f32 :=
  fun i => entRow (fun k => A0 (ix2 (i 0) k)) (fun k => A1 (ix2 (i 0) k)) (fun k => g (ix1 k)) (fun k => b (ix1 k)) (i 1)

/-- The gate of every row, as a one-column array. -/
def gateCol (A0 A1 : S100000x256.Idx → Elt Ideal .f32) (Q : S1x256.Idx → Elt Ideal .f32) (g b : S256.Idx → Elt Ideal .f32) :
    S100000x1.Idx → Elt Ideal .f32 :=
  fun i => gate (entRow (fun k => A0 (ix2 (i 0) k)) (fun k => A1 (ix2 (i 0) k)) (fun k => g (ix1 k)) (fun k => b (ix1 k)))
    (fun k => Q (ix2 (0 : Fin 1) k))

/-- The block indices over the grid: the row-indexed windows sit at block `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 ∧ t.val < 25 :=
  (by decide +kernel : ∀ t : Fin grid0.N, _)

/-- Row `p` of block `t` is row `4000·t + p` of the array. -/
def rowOf (t : Fin cfg0.N) (p : Fin 4000) : Fin 100000 := ⟨t.val * 4000 + p.val, by
  have := (idx_facts t).2.2.2.2.2.2.2.2.2.2.2.2; have := p.isLt; omega⟩

theorem emb0 (t : Fin cfg0.N) (p : Fin 4000) (k : Fin 256) :
    ((cfg0.win 0).blk t).view.emb (ix2 p k) = ix2 (rowOf t p) k := by
  obtain ⟨e0, e1, -⟩ := idx_facts t
  funext a; apply Fin.ext
  match a with
  | ⟨0, _⟩ => show win0_0.index t (0 : Fin 2) * 4000 + 1 * p.val = t.val * 4000 + p.val; omega
  | ⟨1, _⟩ => show win0_0.index t (1 : Fin 2) * 256 + 1 * k.val = k.val; omega

theorem emb1 (t : Fin cfg0.N) (p : Fin 4000) (k : Fin 256) :
    ((cfg0.win 1).blk t).view.emb (ix2 p k) = ix2 (rowOf t p) k := by
  obtain ⟨-, -, e0, e1, -⟩ := idx_facts t
  funext a; apply Fin.ext
  match a with
  | ⟨0, _⟩ => show win0_1.index t (0 : Fin 2) * 4000 + 1 * p.val = t.val * 4000 + p.val; omega
  | ⟨1, _⟩ => show win0_1.index t (1 : Fin 2) * 256 + 1 * k.val = k.val; omega

theorem emb2 (t : Fin cfg0.N) (u : Fin 1) (k : Fin 256) :
    ((cfg0.win 2).blk t).view.emb (ix2 u k) = ix2 (0 : Fin 1) k := by
  obtain ⟨-, -, -, -, e0, e1, -⟩ := idx_facts t
  funext a; apply Fin.ext
  match a with
  | ⟨0, _⟩ => show win0_2.index t (0 : Fin 2) * 1 + 1 * u.val = 0; omega
  | ⟨1, _⟩ => show win0_2.index t (1 : Fin 2) * 256 + 1 * k.val = k.val; omega

theorem emb3 (t : Fin cfg0.N) (k : Fin 256) : ((cfg0.win 3).blk t).view.emb (ix1 k) = ix1 k := by
  obtain ⟨-, -, -, -, -, -, e0, -⟩ := idx_facts t
  funext a; apply Fin.ext
  match a with
  | ⟨0, _⟩ => show win0_3.index t (0 : Fin 1) * 256 + 1 * k.val = k.val; omega

theorem emb4 (t : Fin cfg0.N) (k : Fin 256) : ((cfg0.win 4).blk t).view.emb (ix1 k) = ix1 k := by
  obtain ⟨-, -, -, -, -, -, -, e0, -⟩ := idx_facts t
  funext a; apply Fin.ext
  match a with
  | ⟨0, _⟩ => show win0_4.index t (0 : Fin 1) * 256 + 1 * k.val = k.val; omega

theorem emb5 (t : Fin cfg0.N) (p : Fin 4000) (q : Fin 256) :
    ((cfg0.win 5).blk t).view.emb (ix2 p q) = ix2 (rowOf t p) q := by
  obtain ⟨-, -, -, -, -, -, -, -, e0, e1, -⟩ := idx_facts t
  funext a; apply Fin.ext
  match a with
  | ⟨0, _⟩ => show win0_5.index t (0 : Fin 2) * 4000 + 1 * p.val = t.val * 4000 + p.val; omega
  | ⟨1, _⟩ => show win0_5.index t (1 : Fin 2) * 256 + 1 * q.val = q.val; omega

theorem emb6 (t : Fin cfg0.N) (p : Fin 4000) (u : Fin 1) :
    ((cfg0.win 6).blk t).view.emb (ix2 p u) = ix2 (rowOf t p) (0 : Fin 1) := by
  obtain ⟨-, -, -, -, -, -, -, -, -, -, e0, e1, -⟩ := idx_facts t
  funext a; apply Fin.ext
  match a with
  | ⟨0, _⟩ => show win0_6.index t (0 : Fin 2) * 4000 + 1 * p.val = t.val * 4000 + p.val; omega
  | ⟨1, _⟩ => show win0_6.index t (1 : Fin 2) * 1 + 1 * u.val = 0; omega

/-- Each input window's block at a point, read at an entry, is the array's entry where the block sits. -/
theorem blk0_apply (c : Dev nD) (t : Fin cfg0.N) (p : Fin 4000) (k : Fin 256) :
    iblk0 V c 0 t (ix2 p k) = V c main_arg0 (ix2 (rowOf t p) k) := by
  show V c main_arg0 (((cfg0.win 0).blk t).view.emb (ix2 p k)) = _
  rw [emb0]
theorem blk1_apply (c : Dev nD) (t : Fin cfg0.N) (p : Fin 4000) (k : Fin 256) :
    iblk0 V c 1 t (ix2 p k) = V c main_arg1 (ix2 (rowOf t p) k) := by
  show V c main_arg1 (((cfg0.win 1).blk t).view.emb (ix2 p k)) = _
  rw [emb1]
theorem blk2_apply (c : Dev nD) (t : Fin cfg0.N) (u : Fin 1) (k : Fin 256) :
    iblk0 V c 2 t (ix2 u k) = V c main_arg3 (ix2 (0 : Fin 1) k) := by
  show V c main_arg3 (((cfg0.win 2).blk t).view.emb (ix2 u k)) = _
  rw [emb2]
theorem blk3_apply (c : Dev nD) (t : Fin cfg0.N) (k : Fin 256) :
    iblk0 V c 3 t (ix1 k) = V c main_arg6 (ix1 k) := by
  show V c main_arg6 (((cfg0.win 3).blk t).view.emb (ix1 k)) = _
  rw [emb3]
theorem blk4_apply (c : Dev nD) (t : Fin cfg0.N) (k : Fin 256) :
    iblk0 V c 4 t (ix1 k) = V c main_arg7 (ix1 k) := by
  show V c main_arg7 (((cfg0.win 4).blk t).view.emb (ix1 k)) = _
  rw [emb4]

/-- What point `t` writes back to the feature array is block `t` of the entity features of the arrays. -/
theorem flushed5_eq (c : Dev nD) (t : Fin cfg0.N) :
    (dat0 V c).flushed 5 t = ((cfg0.win 5).blk t).view.read (Elt Ideal)
      (entArr (V c main_arg0) (V c main_arg1) (V c main_arg6) (V c main_arg7)) := by
  show (cfg0.win 5).cut (grid0.coords t) ((dat0 V c).after 5 t) = _
  rw [after0_5]
  unfold out0_5
  rw [View.canon_unit_zero hz2]
  simp only [View.ld_unit_zero (S := S4000x256) hz2, View.ld_unit_zero (S := S256) hz1]
  funext j
  obtain ⟨p, q, rfl⟩ : ∃ (p : Fin 4000) (q : Fin 256), j = ix2 p q := ⟨j 0, j 1, eq_ix2 j⟩
  show k0_pay1 (F := Ideal) (iblk0 V c 0 t) (iblk0 V c 1 t) (iblk0 V c 3 t) (iblk0 V c 4 t) (ix2 p q)
    = entArr (V c main_arg0) (V c main_arg1) (V c main_arg6) (V c main_arg7) (((cfg0.win 5).blk t).view.emb (ix2 p q))
  refine (Cert.Score.EntityBody.features_apply (iblk0 V c 0 t) (iblk0 V c 1 t) (iblk0 V c 3 t) (iblk0 V c 4 t) p q).trans ?_
  rw [emb5]
  show _ = entRow (fun k => V c main_arg0 (ix2 (rowOf t p) k)) (fun k => V c main_arg1 (ix2 (rowOf t p) k))
    (fun k => V c main_arg6 (ix1 k)) (fun k => V c main_arg7 (ix1 k)) q
  simp only [blk0_apply, blk1_apply, blk3_apply, blk4_apply]

/-- What point `t` writes back to the gate column is block `t` of the gate column of the arrays. -/
theorem flushed6_eq (c : Dev nD) (t : Fin cfg0.N) :
    (dat0 V c).flushed 6 t = ((cfg0.win 6).blk t).view.read (Elt Ideal)
      (gateCol (V c main_arg0) (V c main_arg1) (V c main_arg3) (V c main_arg6) (V c main_arg7)) := by
  show (cfg0.win 6).cut (grid0.coords t) ((dat0 V c).after 6 t) = _
  rw [after0_6]
  unfold out0_6
  rw [View.canon_unit_zero hz2]
  simp only [View.ld_unit_zero (S := S4000x256) hz2, View.ld_unit_zero (S := S256) hz1, View.ld_unit_zero (S := S1x256) hz2]
  funext j
  obtain ⟨p, u, rfl⟩ : ∃ (p : Fin 4000) (u : Fin 1), j = ix2 p u := ⟨j 0, j 1, eq_ix2 j⟩
  show k0_pay2 (F := Ideal) (iblk0 V c 0 t) (iblk0 V c 1 t) (iblk0 V c 3 t) (iblk0 V c 4 t) (iblk0 V c 2 t) (ix2 p u)
    = gateCol (V c main_arg0) (V c main_arg1) (V c main_arg3) (V c main_arg6) (V c main_arg7) (((cfg0.win 6).blk t).view.emb (ix2 p u))
  refine (Cert.Score.EntityBody.gate_apply (iblk0 V c 0 t) (iblk0 V c 1 t) (iblk0 V c 3 t) (iblk0 V c 4 t) (iblk0 V c 2 t) p u).trans ?_
  rw [emb6]
  show _ = gate (entRow (fun k => V c main_arg0 (ix2 (rowOf t p) k)) (fun k => V c main_arg1 (ix2 (rowOf t p) k))
    (fun k => V c main_arg6 (ix1 k)) (fun k => V c main_arg7 (ix1 k))) (fun k => V c main_arg3 (ix2 (0 : Fin 1) k))
  simp only [blk0_apply, blk1_apply, blk2_apply, blk3_apply, blk4_apply]

/-- An index of the feature array is in point `t`'s block iff each coordinate is in the block's range. -/
theorem mem_blk5 (t : Fin cfg0.N) (i : S100000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v0_0).slice (win0_5.rect t)).set ↔ _
  rw [View.set_slice_whole, Rect.mem_set_unit]
  exact Iff.rfl

theorem mem_blk6 (t : Fin cfg0.N) (i : S100000x1.Idx) :
    i ∈ ((cfg0.win 6).blk t).view.set ↔ ∀ a : Fin 2, win0_6.index t a * S4000x1.size a ≤ (i a).val ∧ (i a).val < win0_6.index t a * S4000x1.size a + S4000x1.size a := by
  show i ∈ ((View.whole main_v0_1).slice (win0_6.rect t)).set ↔ _
  rw [View.set_slice_whole, Rect.mem_set_unit]
  exact Iff.rfl

/-- The point whose block holds row `r`: `r / 4000`. -/
def pointOf (r : Nat) (h : r < 100000) : Fin cfg0.N := ⟨r / 4000, by rw [show cfg0.N = 25 from N_0]; omega⟩

/-- The 25 blocks of 4000 rows cover the feature array. -/
theorem cover5 (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  refine ⟨pointOf (i 0).val hi0, flush0_5 _, ?_⟩
  rw [mem_blk5]
  obtain ⟨-, -, -, -, -, -, -, -, e0, e1, -⟩ := idx_facts (pointOf (i 0).val hi0)
  have ht : (pointOf (i 0).val hi0).val = (i 0).val / 4000 := rfl
  intro a
  match a with
  | ⟨0, _⟩ => show win0_5.index _ (0 : Fin 2) * 4000 ≤ (i 0).val ∧ (i 0).val < win0_5.index _ (0 : Fin 2) * 4000 + 4000; omega
  | ⟨1, _⟩ => show win0_5.index _ (1 : Fin 2) * 256 ≤ (i 1).val ∧ (i 1).val < win0_5.index _ (1 : Fin 2) * 256 + 256; omega

/-- … and the gate column. -/
theorem cover6 (i : S100000x1.Idx) : ∃ t : Fin cfg0.N, (cfg0.win 6).flush t = true ∧ i ∈ ((cfg0.win 6).blk t).view.set := by
  have hi0 : (i 0).val < 100000 := (i 0).isLt
  have hi1 : (i 1).val < 1 := (i 1).isLt
  refine ⟨pointOf (i 0).val hi0, flush0_6 _, ?_⟩
  rw [mem_blk6]
  obtain ⟨-, -, -, -, -, -, -, -, -, -, e0, e1, -⟩ := idx_facts (pointOf (i 0).val hi0)
  have ht : (pointOf (i 0).val hi0).val = (i 0).val / 4000 := rfl
  intro a
  match a with
  | ⟨0, _⟩ => show win0_6.index _ (0 : Fin 2) * 4000 ≤ (i 0).val ∧ (i 0).val < win0_6.index _ (0 : Fin 2) * 4000 + 4000; omega
  | ⟨1, _⟩ => show win0_6.index _ (1 : Fin 2) * 1 ≤ (i 1).val ∧ (i 1).val < win0_6.index _ (1 : Fin 2) * 1 + 1; omega

/-- The feature array after the region: the entity features of the arrays the region found. -/
theorem final5 (c : Dev nD) : (dat0 V c).arrAt 5 cfg0.N = entArr (V c main_arg0) (V c main_arg1) (V c main_arg6) (V c main_arg7) :=
  (dat0 V c).arrAt_eq_of_cover 5 _ (fun t _ => flushed5_eq V c t) cover5

/-- The gate column after the region. -/
theorem final6 (c : Dev nD) : (dat0 V c).arrAt 6 cfg0.N = gateCol (V c main_arg0) (V c main_arg1) (V c main_arg3) (V c main_arg6) (V c main_arg7) :=
  (dat0 V c).arrAt_eq_of_cover 6 _ (fun t _ => flushed6_eq V c t) cover6

end Cert.KernelIdeal.Blocks0

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.PassageBody.lean ====
/-
  The passage kernel's stored values, read at one entry, on the extended reals.

  For a block of 2000 passage rows the body forms  A = x + ctx,  normalises every row of A
  (mean, centring, variance, rsqrt(var + ε), scale by γ and shift by β), multiplies the normalised
  block by the 256×256 weight matrix, adds the query's row, and rectifies:  at (p, j) this is
  max(∑ₖ h(p,k)·W(k,j) + qb(j), 0)  with  h(p,·) = layerNorm(A(p,·), γ, β).  The score column is then
  ∑ⱼ hid(p,j)·w₂(j) + b₂.  Each step below reads one operation at an entry; a change of float format
  is the identity on the extended reals, a row sum is the finite sum of the row's entries, a product
  into a zero accumulator is the plain sum of products.
-/
import proofs.«110260_j21887153340681_1_alg».proof.Proof.Gen.KernelIdeal.Skeleton
import proofs.«110260_j21887153340681_1_alg».proof.Proof.Spec
import proofs.«110260_j21887153340681_1_alg».proof.Proof.LibColumn
import proofs.«110260_j21887153340681_1_alg».proof.Proof.LibRowOps
import proofs.«110260_j21887153340681_1_alg».proof.Proof.LibPlainDot
import proofs.«110260_j21887153340681_1_alg».proof.Proof.LibBiasRow
import Idealize.ShloMosaic.Lib.ValueLayout

noncomputable section

namespace Cert.Score.PassageBody

open Idealize.ShloMosaic Idealize.ShloMosaic.ValueIdx Cert.KernelIdeal Cert.KernelIdeal.Gen

/-! ## The normalisation of a 2000×256 block, operation by operation -/

/-- The column of row means: the row sums, as a 2000×1 column, divided by 256. -/
def meanCol (A : FVec Ideal S2000x256 .f32) : FVec Ideal S2000x1 .f32 :=
  divf (shapeCast S2000x1 (multiReduction (F := Ideal) .add [1] S2000 A 0x00000000#32 reduces_S2000x256_S2000 (.inl rfl) rfl)
      shapeCasts_S2000_S2000x1)
    (broadcast S2000x1 (Scalar.ofBits .f32 0x43800000#32))

/-- The block minus its row means. -/
def centredMat (A : FVec Ideal S2000x256 .f32) : FVec Ideal S2000x256 .f32 :=
  subf A (broadcastTo S2000x256 (meanCol A) broadcasts_S2000x1_S2000x256)

/-- The column of reciprocal standard deviations rsqrt(var + ε). -/
def invStdCol (A : FVec Ideal S2000x256 .f32) : FVec Ideal S2000x1 .f32 :=
  rsqrt (addf (meanCol (mulf (centredMat A) (centredMat A))) (broadcast S2000x1 (Scalar.ofBits .f32 0x3727C5AC#32)))

/-- The normalised block: centred, scaled by the reciprocal deviation, by γ, and shifted by β. -/
def normMat (A : FVec Ideal S2000x256 .f32) (g b : FVec Ideal S256 .f32) : FVec Ideal S2000x256 .f32 :=
  addf
    (mulf (mulf (centredMat A) (broadcastTo S2000x256 (invStdCol A) broadcasts_S2000x1_S2000x256))
      (broadcastTo S2000x256 (shapeCast S1x256 g shapeCasts_S256_S1x256) broadcasts_S1x256_S2000x256))
    (broadcastTo S2000x256 (shapeCast S1x256 b shapeCasts_S256_S1x256) broadcasts_S1x256_S2000x256)

/-- The mean column at row p is the mean of row p. -/
theorem meanCol_apply (A : FVec Ideal S2000x256 .f32) (p : Fin 2000) (u : Fin 1) :
    meanCol A (ix2 p u) = mean (fun k => A (ix2 p k)) := by
  unfold meanCol
  refine (divf_apply _ _ _).trans ?_
  refine congrArg (Ideal.div · n256) ?_
  refine (Cert.LibColumn.shapeCast_a_a1_apply _ _ p u).trans ?_
  exact Cert.LibRowOps.rowSum_apply A _ _ _ _ p

/-- The centred block at (p, k) is the entry minus its row's mean. -/
theorem centredMat_apply (A : FVec Ideal S2000x256 .f32) (p : Fin 2000) (k : Fin 256) :
    centredMat A (ix2 p k) = centred (fun k => A (ix2 p k)) k := by
  unfold centredMat
  refine (subf_apply _ _ _).trans ?_
  refine congrArg (A (ix2 p k) - ·) ?_
  refine (Cert.LibColumn.broadcastTo_a1_ab_apply _ _ p k).trans ?_
  exact meanCol_apply A p 0

/-- The reciprocal-deviation column at row p is that of row p: rsqrt of the mean squared deviation plus ε. -/
theorem invStdCol_apply (A : FVec Ideal S2000x256 .f32) (p : Fin 2000) (u : Fin 1) :
    invStdCol A (ix2 p u) = invStd (fun k => A (ix2 p k)) := by
  unfold invStdCol
  refine congrArg (fun t => Ideal.rsqrt (t + eps)) ?_
  refine (meanCol_apply _ p u).trans ?_
  refine congrArg mean (funext fun k => ?_)
  refine (mulf_apply _ _ _).trans ?_
  exact congrArg₂ (· * ·) (centredMat_apply A p k) (centredMat_apply A p k)

/-- A length-256 vector, as a 1×256 row spread over the 2000 rows, reads at (p, k) the vector's entry k. -/
theorem rowSpread_apply (g : FVec Ideal S256 .f32) (p : Fin 2000) (k : Fin 256) :
    broadcastTo S2000x256 (shapeCast S1x256 g shapeCasts_S256_S1x256) broadcasts_S1x256_S2000x256 (ix2 p k) = g (ix1 k) := by
  refine (broadcastTo_1b_ab_apply _ _ p k).trans ?_
  exact congrFun (Cert.Row.shapeCast_row g _) (ix2 (0 : Fin 1) k)

/-- The normalised block at (p, k) is the layer normalisation of row p at k. -/
theorem normMat_apply (A : FVec Ideal S2000x256 .f32) (g b : FVec Ideal S256 .f32) (p : Fin 2000) (k : Fin 256) :
    normMat A g b (ix2 p k) = layerNorm (fun k => A (ix2 p k)) (fun k => g (ix1 k)) (fun k => b (ix1 k)) k := by
  unfold normMat
  refine (addf_apply _ _ _).trans ?_
  refine congrArg₂ (· + ·) ?_ (rowSpread_apply b p k)
  refine (mulf_apply _ _ _).trans ?_
  refine congrArg₂ (· * ·) ?_ (rowSpread_apply g p k)
  refine (mulf_apply _ _ _).trans ?_
  refine congrArg₂ (· * ·) (centredMat_apply A p k) ?_
  refine (Cert.LibColumn.broadcastTo_a1_ab_apply _ _ p k).trans ?_
  exact invStdCol_apply A p 0

/-! ## The hidden layer -/

/-- The body's value up to the rectified hidden layer, as one term over the normalised block. -/
def hiddenMat (v0 v1 : FVec Ideal S2000x256 .f32) (v20 v24 : FVec Ideal S256 .f32) (v29 : FVec Ideal S256x256 .f32)
    (v33 : FVec Ideal S1x256 .f32) : FVec Ideal S2000x256 .bf16 :=
  truncf .bf16
    (maximumf
      (addf
        (matmul dot_S2000x256_S256x256_S2000x256_1_0_0_1_n_n none
          (truncf .bf16 (normMat (addf v0 (shapeCast S2000x256 v1 shapeCasts_S2000x256_S2000x256)) v20 v24) bitsLt_bf16_f32)
          (truncf .bf16 (shapeCast S256x256 v29 shapeCasts_S256x256_S256x256) bitsLt_bf16_f32)
          (constant S2000x256 .f32 0x00000000#32))
        (broadcastTo S2000x256 (shapeCast S1x256 (shapeCast S1x256 v33 shapeCasts_S1x256_S1x256) shapeCasts_S1x256_S1x256)
          broadcasts_S1x256_S2000x256))
      (broadcast S2000x256 (Scalar.ofBits .f32 0x00000000#32)))
    bitsLt_bf16_f32

/-- The body's hidden-layer value is that term: the two are the same sequence of operations. -/
theorem k1_pay2_eq (v0 v1 : Vec Ideal S2000x256 .f32) (v20 v24 : Vec Ideal S256 .f32) (v29 : Vec Ideal S256x256 .f32)
    (v33 : Vec Ideal S1x256 .f32) :
    k1_pay2 (F := Ideal) v0 v1 v20 v24 v29 v33 = hiddenMat v0 v1 v20 v24 v29 v33 := rfl

/-- The hidden layer's product is a plain 2000×256 by 256×256 one: rows against columns, no batch axis. -/
theorem dims_hidden : dot_S2000x256_S256x256_S2000x256_1_0_0_1_n_n = DotDims.plain 2000 256 256 := rfl

/-- THE HIDDEN LAYER AT (p, j): the rectified  h·W[:,j] + qb j  of the normalised row  h = layerNorm(x + ctx, γ, β). -/
theorem hidden_apply (v0 v1 : Vec Ideal S2000x256 .f32) (v20 v24 : Vec Ideal S256 .f32) (v29 : Vec Ideal S256x256 .f32)
    (v33 : Vec Ideal S1x256 .f32) (p : Fin 2000) (j : Fin 256) :
    k1_pay2 (F := Ideal) v0 v1 v20 v24 v29 v33 (ix2 p j)
      = Cert.Score.hidden
          (Cert.Score.psgRow (fun k => v0 (ix2 p k)) (fun k => v1 (ix2 p k)) (fun k => v20 (ix1 k)) (fun k => v24 (ix1 k)))
          (fun k j' => v29 (ix2 k j')) (fun j' => v33 (ix2 (0 : Fin 1) j')) j := by
  rw [k1_pay2_eq]
  unfold hiddenMat
  refine (truncf_apply (φ := .f32) (ψ := .bf16) _ bitsLt_bf16_f32 _).trans ?_
  refine (maximumf_apply _ _ _).trans ?_
  refine congrArg (max · zeroW) ?_
  refine (addf_apply _ _ _).trans ?_
  refine congrArg₂ (· + ·) ?_ ?_
  · refine (Cert.LibPlainDot.matmul_zero_apply _ dims_hidden none _ _ p j).trans ?_
    refine Finset.sum_congr rfl fun k _ => congrArg₂ (· * ·) ?_ ?_
    · refine (truncf_apply (φ := .f32) (ψ := .bf16) _ bitsLt_bf16_f32 _).trans ?_
      refine (normMat_apply _ v20 v24 p k).trans ?_
      refine congrArg (fun x => layerNorm x (fun k => v20 (ix1 k)) (fun k => v24 (ix1 k)) k) (funext fun k' => ?_)
      refine (addf_apply _ _ _).trans ?_
      exact congrArg (v0 (ix2 p k') + ·) (congrFun (shapeCast_self v1 _) (ix2 p k'))
    · refine (truncf_apply (φ := .f32) (ψ := .bf16) _ bitsLt_bf16_f32 _).trans ?_
      exact congrFun (shapeCast_self v29 _) (ix2 k j)
  · refine (broadcastTo_1b_ab_apply _ _ p j).trans ?_
    refine (congrFun (shapeCast_self _ _) _).trans ?_
    exact congrFun (shapeCast_self v33 _) _

/-! ## The score column -/

/-- The score's product is a plain 2000×256 by 256×1 one. -/
theorem dims_score : dot_S2000x256_S256x1_S2000x1_1_0_0_1_n_n = DotDims.plain 2000 256 1 := rfl

/-- THE SCORE AT ROW p: the hidden row against the output weights, plus the output bias. -/
theorem score_apply (v40 : FVec Ideal S2000x256 .bf16) (v41 : Vec Ideal S256x1 .f32) (v44 : Vec Ideal S1 .f32)
    (p : Fin 2000) (u : Fin 1) :
    k1_pay1 (F := Ideal) v40 v41 v44 (ix2 p u)
      = Cert.Score.score (fun j => v40 (ix2 p j)) (fun j => v41 (ix2 j (0 : Fin 1))) (v44 (ix1 (0 : Fin 1))) := by
  obtain rfl : u = 0 := Subsingleton.elim _ _
  unfold k1_pay1
  refine (addf_apply _ _ _).trans ?_
  refine congrArg₂ (· + ·) ?_ ?_
  · refine (Cert.LibPlainDot.matmul_zero_apply _ dims_score none _ _ p 0).trans ?_
    exact Finset.sum_congr rfl fun k _ => rfl
  · refine (broadcastTo_1b_ab_apply _ _ p (0 : Fin 1)).trans ?_
    exact Cert.LibColumn.shapeCast_a_a1_apply v44 _ (0 : Fin 1) (0 : Fin 1)

end Cert.Score.PassageBody

end
-- ==== Proof.Blocks1.lean ====
/-
  The passage region's output array as a whole-array function of the arrays the region finds.

  The region walks 10 blocks of 2000 rows.  Block `t` of the two row-indexed inputs and of the output starts at row
  `2000·t`; the scale, the shift, the weights, the query's share and the output bias are whole at every point.  What
  point `t` writes back at row p is the score of row `2000·t + p`; the 10 blocks tile the 20000 rows.
-/
import proofs.«110260_j21887153340681_1_alg».proof.Proof.Gen.KernelIdeal.Frame
import proofs.«110260_j21887153340681_1_alg».proof.Proof.Spec
import proofs.«110260_j21887153340681_1_alg».proof.Proof.PassageBody
import Idealize.ShloMosaic.Lib.Pipeline.Value
import Idealize.ShloMosaic.Lib.ValueIdx

set_option maxRecDepth 16384

noncomputable section

namespace Cert.KernelIdeal.Blocks1

open Cert.KernelIdeal Cert.KernelIdeal.Gen Cert.Score
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The score of every passage row, as a one-column array: the two-layer head over the normalised sum of the row's
    features and its context, with the upper weight rows `Wt`, the query's share `qb`, the output weights and bias. -/
def scoreCol (A2 CTX : S20000x256.Idx → Elt Ideal .f32) (g b : S256.Idx → Elt Ideal .f32) (Wt : S256x256.Idx → Elt Ideal .f32)
    (qb : S1x256.Idx → Elt Ideal .f32) (W2 : S256x1.Idx → Elt Ideal .f32) (b2 : S1.Idx → Elt Ideal .f32) :
    S20000x1.Idx → Elt Ideal .f32 :=
  fun i => score (hidden (psgRow (fun k => A2 (ix2 (i 0) k)) (fun k => CTX (ix2 (i 0) k)) (fun k => g (ix1 k)) (fun k => b (ix1 k)))
      (fun k j => Wt (ix2 k j)) (fun j => qb (ix2 (0 : Fin 1) j)))
    (fun j => W2 (ix2 j (0 : Fin 1))) (b2 (ix1 (0 : Fin 1)))

/-- The block indices over the grid: the row-indexed windows sit at block `t`, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 ∧ t.val < 10 :=
  (by decide +kernel : ∀ t : Fin grid1.N, _)

/-- Row `p` of block `t` is row `2000·t + p` of the array. -/
def rowOf (t : Fin cfg1.N) (p : Fin 2000) : Fin 20000 := ⟨t.val * 2000 + p.val, by
  have := (idx_facts t).2.2.2.2.2.2.2.2.2.2.2.2.2.2.2; have := p.isLt; omega⟩

theorem emb0 (t : Fin cfg1.N) (p : Fin 2000) (k : Fin 256) :
    ((cfg1.win 0).blk t).view.emb (ix2 p k) = ix2 (rowOf t p) k := by
  obtain ⟨e0, e1, -⟩ := idx_facts t
  funext a; apply Fin.ext
  match a with
  | ⟨0, _⟩ => show win1_0.index t (0 : Fin 2) * 2000 + 1 * p.val = t.val * 2000 + p.val; omega
  | ⟨1, _⟩ => show win1_0.index t (1 : Fin 2) * 256 + 1 * k.val = k.val; omega

theorem emb1 (t : Fin cfg1.N) (p : Fin 2000) (k : Fin 256) :
    ((cfg1.win 1).blk t).view.emb (ix2 p k) = ix2 (rowOf t p) k := by
  obtain ⟨-, -, e0, e1, -⟩ := idx_facts t
  funext a; apply Fin.ext
  match a with
  | ⟨0, _⟩ => show win1_1.index t (0 : Fin 2) * 2000 + 1 * p.val = t.val * 2000 + p.val; omega
  | ⟨1, _⟩ => show win1_1.index t (1 : Fin 2) * 256 + 1 * k.val = k.val; omega

theorem emb2 (t : Fin cfg1.N) (k : Fin 256) : ((cfg1.win 2).blk t).view.emb (ix1 k) = ix1 k := by
  obtain ⟨-, -, -, -, e0, -⟩ := idx_facts t
  funext a; apply Fin.ext
  match a with
  | ⟨0, _⟩ => show win1_2.index t (0 : Fin 1) * 256 + 1 * k.val = k.val; omega

theorem emb3 (t : Fin cfg1.N) (k : Fin 256) : ((cfg1.win 3).blk t).view.emb (ix1 k) = ix1 k := by
  obtain ⟨-, -, -, -, -, e0, -⟩ := idx_facts t
  funext a; apply Fin.ext
  match a with
  | ⟨0, _⟩ => show win1_3.index t (0 : Fin 1) * 256 + 1 * k.val = k.val; omega

theorem emb4 (t : Fin cfg1.N) (k j : Fin 256) : ((cfg1.win 4).blk t).view.emb (ix2 k j) = ix2 k j := by
  obtain ⟨-, -, -, -, -, -, e0, e1, -⟩ := idx_facts t
  funext a; apply Fin.ext
  match a with
  | ⟨0, _⟩ => show win1_4.index t (0 : Fin 2) * 256 + 1 * k.val = k.val; omega
  | ⟨1, _⟩ => show win1_4.index t (1 : Fin 2) * 256 + 1 * j.val = j.val; omega

theorem emb5 (t : Fin cfg1.N) (u : Fin 1) (j : Fin 256) : ((cfg1.win 5).blk t).view.emb (ix2 u j) = ix2 (0 : Fin 1) j := by
  obtain ⟨-, -, -, -, -, -, -, -, e0, e1, -⟩ := idx_facts t
  funext a; apply Fin.ext
  match a with
  | ⟨0, _⟩ => show win1_5.index t (0 : Fin 2) * 1 + 1 * u.val = 0; omega
  | ⟨1, _⟩ => show win1_5.index t (1 : Fin 2) * 256 + 1 * j.val = j.val; omega

theorem emb6 (t : Fin cfg1.N) (j : Fin 256) (u : Fin 1) : ((cfg1.win 6).blk t).view.emb (ix2 j u) = ix2 j (0 : Fin 1) := by
  obtain ⟨-, -, -, -, -, -, -, -, -, -, e0, e1, -⟩ := idx_facts t
  funext a; apply Fin.ext
  match a with
  | ⟨0, _⟩ => show win1_6.index t (0 : Fin 2) * 256 + 1 * j.val = j.val; omega
  | ⟨1, _⟩ => show win1_6.index t (1 : Fin 2) * 1 + 1 * u.val = 0; omega

theorem emb7 (t : Fin cfg1.N) (u : Fin 1) : ((cfg1.win 7).blk t).view.emb (ix1 u) = ix1 (0 : Fin 1) := by
  obtain ⟨-, -, -, -, -, -, -, -, -, -, -, -, e0, -⟩ := idx_facts t
  funext a; apply Fin.ext
  match a with
  | ⟨0, _⟩ => show win1_7.index t (0 : Fin 1) * 1 + 1 * u.val = 0; omega

theorem emb8 (t : Fin cfg1.N) (p : Fin 2000) (u : Fin 1) :
    ((cfg1.win 8).blk t).view.emb (ix2 p u) = ix2 (rowOf t p) (0 : Fin 1) := by
  obtain ⟨-, -, -, -, -, -, -, -, -, -, -, -, -, e0, e1, -⟩ := idx_facts t
  funext a; apply Fin.ext
  match a with
  | ⟨0, _⟩ => show win1_8.index t (0 : Fin 2) * 2000 + 1 * p.val = t.val * 2000 + p.val; omega
  | ⟨1, _⟩ => show win1_8.index t (1 : Fin 2) * 1 + 1 * u.val = 0; omega

/-- Each input window's block at a point, read at an entry, is the array's entry where the block sits. -/
theorem blk0_apply (c : Dev nD) (t : Fin cfg1.N) (p : Fin 2000) (k : Fin 256) :
    iblk1 V c 0 t (ix2 p k) = V c main_arg2 (ix2 (rowOf t p) k) := by
  show V c main_arg2 (((cfg1.win 0).blk t).view.emb (ix2 p k)) = _
  rw [emb0]
theorem blk1_apply (c : Dev nD) (t : Fin cfg1.N) (p : Fin 2000) (k : Fin 256) :
    iblk1 V c 1 t (ix2 p k) = V c main_v19 (ix2 (rowOf t p) k) := by
  show V c main_v19 (((cfg1.win 1).blk t).view.emb (ix2 p k)) = _
  rw [emb1]
theorem blk2_apply (c : Dev nD) (t : Fin cfg1.N) (k : Fin 256) :
    iblk1 V c 2 t (ix1 k) = V c main_arg8 (ix1 k) := by
  show V c main_arg8 (((cfg1.win 2).blk t).view.emb (ix1 k)) = _
  rw [emb2]
theorem blk3_apply (c : Dev nD) (t : Fin cfg1.N) (k : Fin 256) :
    iblk1 V c 3 t (ix1 k) = V c main_arg9 (ix1 k) := by
  show V c main_arg9 (((cfg1.win 3).blk t).view.emb (ix1 k)) = _
  rw [emb3]
theorem blk4_apply (c : Dev nD) (t : Fin cfg1.N) (k j : Fin 256) :
    iblk1 V c 4 t (ix2 k j) = V c main_v20 (ix2 k j) := by
  show V c main_v20 (((cfg1.win 4).blk t).view.emb (ix2 k j)) = _
  rw [emb4]
theorem blk5_apply (c : Dev nD) (t : Fin cfg1.N) (u : Fin 1) (j : Fin 256) :
    iblk1 V c 5 t (ix2 u j) = V c main_v24 (ix2 (0 : Fin 1) j) := by
  show V c main_v24 (((cfg1.win 5).blk t).view.emb (ix2 u j)) = _
  rw [emb5]
theorem blk6_apply (c : Dev nD) (t : Fin cfg1.N) (j : Fin 256) (u : Fin 1) :
    iblk1 V c 6 t (ix2 j u) = V c main_arg12 (ix2 j (0 : Fin 1)) := by
  show V c main_arg12 (((cfg1.win 6).blk t).view.emb (ix2 j u)) = _
  rw [emb6]
theorem blk7_apply (c : Dev nD) (t : Fin cfg1.N) (u : Fin 1) :
    iblk1 V c 7 t (ix1 u) = V c main_arg13 (ix1 (0 : Fin 1)) := by
  show V c main_arg13 (((cfg1.win 7).blk t).view.emb (ix1 u)) = _
  rw [emb7]

/-- What point `t` writes back is block `t` of the score column of the arrays the region found. -/
theorem flushed8_eq (c : Dev nD) (t : Fin cfg1.N) :
    (dat1 V c).flushed 8 t = ((cfg1.win 8).blk t).view.read (Elt Ideal)
      (scoreCol (V c main_arg2) (V c main_v19) (V c main_arg8) (V c main_arg9) (V c main_v20) (V c main_v24) (V c main_arg12) (V c main_arg13)) := by
  show (cfg1.win 8).cut (grid1.coords t) ((dat1 V c).after 8 t) = _
  rw [after1_8]
  unfold out1_8
  rw [View.canon_unit_zero hz2]
  simp only [View.ld_unit_zero (S := S2000x256) hz2, View.ld_unit_zero (S := S256) hz1, View.ld_unit_zero (S := S256x256) hz2,
    View.ld_unit_zero (S := S1x256) hz2, View.ld_unit_zero (S := S256x1) hz2, View.ld_unit_zero (S := S1) hz1]
  funext y
  obtain ⟨p, u, rfl⟩ : ∃ (p : Fin 2000) (u : Fin 1), y = ix2 p u := ⟨y 0, y 1, eq_ix2 y⟩
  show k1_pay1 (F := Ideal) (k1_pay2 (F := Ideal) (iblk1 V c 0 t) (iblk1 V c 1 t) (iblk1 V c 2 t) (iblk1 V c 3 t) (iblk1 V c 4 t) (iblk1 V c 5 t))
      (iblk1 V c 6 t) (iblk1 V c 7 t) (ix2 p u)
    = scoreCol (V c main_arg2) (V c main_v19) (V c main_arg8) (V c main_arg9) (V c main_v20) (V c main_v24) (V c main_arg12) (V c main_arg13)
        (((cfg1.win 8).blk t).view.emb (ix2 p u))
  refine (Cert.Score.PassageBody.score_apply _ (iblk1 V c 6 t) (iblk1 V c 7 t) p u).trans ?_
  have hh : (fun j : Fin 256 => k1_pay2 (F := Ideal) (iblk1 V c 0 t) (iblk1 V c 1 t) (iblk1 V c 2 t) (iblk1 V c 3 t) (iblk1 V c 4 t) (iblk1 V c 5 t) (ix2 p j))
      = fun j => hidden (psgRow (fun k => iblk1 V c 0 t (ix2 p k)) (fun k => iblk1 V c 1 t (ix2 p k)) (fun k => iblk1 V c 2 t (ix1 k)) (fun k => iblk1 V c 3 t (ix1 k)))
          (fun k j' => iblk1 V c 4 t (ix2 k j')) (fun j' => iblk1 V c 5 t (ix2 (0 : Fin 1) j')) j :=
    funext fun j => Cert.Score.PassageBody.hidden_apply (iblk1 V c 0 t) (iblk1 V c 1 t) (iblk1 V c 2 t) (iblk1 V c 3 t) (iblk1 V c 4 t) (iblk1 V c 5 t) p j
  rw [hh, emb8]
  show _ = score (hidden (psgRow (fun k => V c main_arg2 (ix2 (rowOf t p) k)) (fun k => V c main_v19 (ix2 (rowOf t p) k))
        (fun k => V c main_arg8 (ix1 k)) (fun k => V c main_arg9 (ix1 k)))
      (fun k j => V c main_v20 (ix2 k j)) (fun j => V c main_v24 (ix2 (0 : Fin 1) j)))
    (fun j => V c main_arg12 (ix2 j (0 : Fin 1))) (V c main_arg13 (ix1 (0 : Fin 1)))
  simp only [blk0_apply, blk1_apply, blk2_apply, blk3_apply, blk4_apply, blk5_apply, blk6_apply, blk7_apply]

/-- An index of the score column is in point `t`'s block iff each coordinate is in the block's range. -/
theorem mem_blk8 (t : Fin cfg1.N) (i : S20000x1.Idx) :
    i ∈ ((cfg1.win 8).blk t).view.set ↔ ∀ a : Fin 2, win1_8.index t a * S2000x1.size a ≤ (i a).val ∧ (i a).val < win1_8.index t a * S2000x1.size a + S2000x1.size a := by
  show i ∈ ((View.whole main_v25).slice (win1_8.rect t)).set ↔ _
  rw [View.set_slice_whole, Rect.mem_set_unit]
  exact Iff.rfl

/-- The point whose block holds row `r`: `r / 2000`. -/
def pointOf (r : Nat) (h : r < 20000) : Fin cfg1.N := ⟨r / 2000, by rw [show cfg1.N = 10 from N_1]; omega⟩

/-- The 10 blocks of 2000 rows cover the score column. -/
theorem cover8 (i : S20000x1.Idx) : ∃ t : Fin cfg1.N, (cfg1.win 8).flush t = true ∧ i ∈ ((cfg1.win 8).blk t).view.set := by
  have hi0 : (i 0).val < 20000 := (i 0).isLt
  have hi1 : (i 1).val < 1 := (i 1).isLt
  refine ⟨pointOf (i 0).val hi0, flush1_8 _, ?_⟩
  rw [mem_blk8]
  obtain ⟨-, -, -, -, -, -, -, -, -, -, -, -, -, e0, e1, -⟩ := idx_facts (pointOf (i 0).val hi0)
  have ht : (pointOf (i 0).val hi0).val = (i 0).val / 2000 := rfl
  intro a
  match a with
  | ⟨0, _⟩ => show win1_8.index _ (0 : Fin 2) * 2000 ≤ (i 0).val ∧ (i 0).val < win1_8.index _ (0 : Fin 2) * 2000 + 2000; omega
  | ⟨1, _⟩ => show win1_8.index _ (1 : Fin 2) * 1 ≤ (i 1).val ∧ (i 1).val < win1_8.index _ (1 : Fin 2) * 1 + 1; omega

/-- The score column after the region: the scores of the arrays the region found. -/
theorem final8 (c : Dev nD) : (dat1 V c).arrAt 8 cfg1.N
    = scoreCol (V c main_arg2) (V c main_v19) (V c main_arg8) (V c main_arg9) (V c main_v20) (V c main_v24) (V c main_arg12) (V c main_arg13) :=
  (dat1 V c).arrAt_eq_of_cover 8 _ (fun t _ => flushed8_eq V c t) cover8

end Cert.KernelIdeal.Blocks1

end
-- ==== Proof.Fold.lean ====
/-
  The idealized kernel's result as one function of the argument arrays.

  The buffers' contents are followed through the program's four segments.  After the entity region its two output
  arrays hold the entity features and the gate column of the argument arrays; the host operations then form the
  aggregated context, the upper weight rows and the query's share; the passage region leaves the score column of
  those; the last operation flattens the column.  No segment writes an argument array.
-/
import proofs.«110260_j21887153340681_1_alg».proof.Proof.Gen.KernelIdeal.Frame
import proofs.«110260_j21887153340681_1_alg».proof.Proof.Context
import proofs.«110260_j21887153340681_1_alg».proof.Proof.Blocks0
import proofs.«110260_j21887153340681_1_alg».proof.Proof.Blocks1
import Idealize.ShloMosaic.Lib.Pipeline.Value
import Idealize.ShloMosaic.Lib.StableHlo.Run

set_option maxRecDepth 16384

noncomputable section

namespace Cert.KernelIdeal.Fold

open Cert.KernelIdeal Cert.KernelIdeal.Gen Cert.Score Cert.KernelIdeal.Blocks0 Cert.KernelIdeal.Blocks1
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the entity region -/

/-- The feature array after the entity region. -/
theorem W1_features (c : Dev nD) : W1 m ρ c (Proc.devRef .tc main_v0_0)
    = entArr (m ((c : Thread nD τ).loc main_arg0)) (m ((c : Thread nD τ).loc main_arg1))
        (m ((c : Thread nD τ).loc main_arg6)) (m ((c : Thread nD τ).loc main_arg7)) :=
  (W1_arr m ρ c 5).trans (final5 (V0 m ρ) c)

/-- The gate column after the entity region. -/
theorem W1_gate (c : Dev nD) : W1 m ρ c (Proc.devRef .tc main_v0_1)
    = gateCol (m ((c : Thread nD τ).loc main_arg0)) (m ((c : Thread nD τ).loc main_arg1)) (m ((c : Thread nD τ).loc main_arg3))
        (m ((c : Thread nD τ).loc main_arg6)) (m ((c : Thread nD τ).loc main_arg7)) :=
  (W1_arr m ρ c 6).trans (final6 (V0 m ρ) c)

/-- The query row is an input of the entity region: read, not written. -/
theorem W1_arg3 (c : Dev nD) : W1 m ρ c (Proc.devRef .tc main_arg3) = m ((c : Thread nD τ).loc main_arg3) :=
  (W1_arr m ρ c 2).trans (((dat0 (V0 m ρ) c).arrAt_in 2 rfl _).trans (A_eq0 (V0 m ρ) c 2))

/-- The arrays the entity region does not touch are as launched. -/
theorem W1_arg2 (c : Dev nD) : W1 m ρ c (Proc.devRef .tc main_arg2) = m ((c : Thread nD τ).loc main_arg2) := W1_of_ne m ρ c main_arg2 (by decide)
theorem W1_arg4 (c : Dev nD) : W1 m ρ c (Proc.devRef .tc main_arg4) = m ((c : Thread nD τ).loc main_arg4) := W1_of_ne m ρ c main_arg4 (by decide)
theorem W1_arg5 (c : Dev nD) : W1 m ρ c (Proc.devRef .tc main_arg5) = m ((c : Thread nD τ).loc main_arg5) := W1_of_ne m ρ c main_arg5 (by decide)
theorem W1_arg8 (c : Dev nD) : W1 m ρ c (Proc.devRef .tc main_arg8) = m ((c : Thread nD τ).loc main_arg8) := W1_of_ne m ρ c main_arg8 (by decide)
theorem W1_arg9 (c : Dev nD) : W1 m ρ c (Proc.devRef .tc main_arg9) = m ((c : Thread nD τ).loc main_arg9) := W1_of_ne m ρ c main_arg9 (by decide)
theorem W1_arg10 (c : Dev nD) : W1 m ρ c (Proc.devRef .tc main_arg10) = m ((c : Thread nD τ).loc main_arg10) := W1_of_ne m ρ c main_arg10 (by decide)
theorem W1_arg11 (c : Dev nD) : W1 m ρ c (Proc.devRef .tc main_arg11) = m ((c : Thread nD τ).loc main_arg11) := W1_of_ne m ρ c main_arg11 (by decide)
theorem W1_arg12 (c : Dev nD) : W1 m ρ c (Proc.devRef .tc main_arg12) = m ((c : Thread nD τ).loc main_arg12) := W1_of_ne m ρ c main_arg12 (by decide)
theorem W1_arg13 (c : Dev nD) : W1 m ρ c (Proc.devRef .tc main_arg13) = m ((c : Thread nD τ).loc main_arg13) := W1_of_ne m ρ c main_arg13 (by decide)

/-! ## After the host operations between the regions -/

/-- The context array handed to the passage region. -/
theorem V2_ctx (c : Dev nD) : V2 m ρ c main_v19
    = ctxArr (entArr (m ((c : Thread nD τ).loc main_arg0)) (m ((c : Thread nD τ).loc main_arg1))
          (m ((c : Thread nD τ).loc main_arg6)) (m ((c : Thread nD τ).loc main_arg7)))
        (gateCol (m ((c : Thread nD τ).loc main_arg0)) (m ((c : Thread nD τ).loc main_arg1)) (m ((c : Thread nD τ).loc main_arg3))
          (m ((c : Thread nD τ).loc main_arg6)) (m ((c : Thread nD τ).loc main_arg7)))
        (m ((c : Thread nD τ).loc main_arg4)) (m ((c : Thread nD τ).loc main_arg5)) := by
  have h : V2 m ρ c main_v19 = ctxArr (W1 m ρ c (Proc.devRef .tc main_v0_0)) (W1 m ρ c (Proc.devRef .tc main_v0_1))
      (W1 m ρ c (Proc.devRef .tc main_arg4)) (W1 m ρ c (Proc.devRef .tc main_arg5)) := by
    show StableHlo.after hostOps1 (W1 m ρ c) (Proc.devRef .tc main_v19) = _
    after_results_simp
    rfl
  rw [h, W1_features, W1_gate, W1_arg4, W1_arg5]

/-- The upper weight rows handed to the passage region. -/
theorem V2_wtop (c : Dev nD) : V2 m ρ c main_v20 = wtopArr (m ((c : Thread nD τ).loc main_arg10)) := by
  have h : V2 m ρ c main_v20 = wtopArr (W1 m ρ c (Proc.devRef .tc main_arg10)) := by
    show StableHlo.after hostOps1 (W1 m ρ c) (Proc.devRef .tc main_v20) = _
    after_results_simp
    rfl
  rw [h, W1_arg10]

/-- The query's share handed to the passage region. -/
theorem V2_qb (c : Dev nD) : V2 m ρ c main_v24
    = qbArr (m ((c : Thread nD τ).loc main_arg3)) (m ((c : Thread nD τ).loc main_arg10)) (m ((c : Thread nD τ).loc main_arg11)) := by
  have h : V2 m ρ c main_v24 = qbArr (W1 m ρ c (Proc.devRef .tc main_arg3)) (W1 m ρ c (Proc.devRef .tc main_arg10))
      (W1 m ρ c (Proc.devRef .tc main_arg11)) := by
    show StableHlo.after hostOps1 (W1 m ρ c) (Proc.devRef .tc main_v24) = _
    after_results_simp
    rfl
  rw [h, W1_arg3, W1_arg10, W1_arg11]

/-- The host operations write no argument array. -/
theorem V2_arg2 (c : Dev nD) : V2 m ρ c main_arg2 = m ((c : Thread nD τ).loc main_arg2) := by
  have h : V2 m ρ c main_arg2 = W1 m ρ c (Proc.devRef .tc main_arg2) := by
    show StableHlo.after hostOps1 (W1 m ρ c) (Proc.devRef .tc main_arg2) = _
    after_results_simp
  rw [h, W1_arg2]
theorem V2_arg8 (c : Dev nD) : V2 m ρ c main_arg8 = m ((c : Thread nD τ).loc main_arg8) := by
  have h : V2 m ρ c main_arg8 = W1 m ρ c (Proc.devRef .tc main_arg8) := by
    show StableHlo.after hostOps1 (W1 m ρ c) (Proc.devRef .tc main_arg8) = _
    after_results_simp
  rw [h, W1_arg8]
theorem V2_arg9 (c : Dev nD) : V2 m ρ c main_arg9 = m ((c : Thread nD τ).loc main_arg9) := by
  have h : V2 m ρ c main_arg9 = W1 m ρ c (Proc.devRef .tc main_arg9) := by
    show StableHlo.after hostOps1 (W1 m ρ c) (Proc.devRef .tc main_arg9) = _
    after_results_simp
  rw [h, W1_arg9]
theorem V2_arg12 (c : Dev nD) : V2 m ρ c main_arg12 = m ((c : Thread nD τ).loc main_arg12) := by
  have h : V2 m ρ c main_arg12 = W1 m ρ c (Proc.devRef .tc main_arg12) := by
    show StableHlo.after hostOps1 (W1 m ρ c) (Proc.devRef .tc main_arg12) = _
    after_results_simp
  rw [h, W1_arg12]
theorem V2_arg13 (c : Dev nD) : V2 m ρ c main_arg13 = m ((c : Thread nD τ).loc main_arg13) := by
  have h : V2 m ρ c main_arg13 = W1 m ρ c (Proc.devRef .tc main_arg13) := by
    show StableHlo.after hostOps1 (W1 m ρ c) (Proc.devRef .tc main_arg13) = _
    after_results_simp
  rw [h, W1_arg13]

/-! ## After the passage region and the last operation -/

/-- The score column after the passage region, as a function of the argument arrays. -/
def scoreOf (c : Dev nD) : FVec Ideal S20000x1 .f32 :=
  scoreCol (m ((c : Thread nD τ).loc main_arg2))
    (ctxArr (entArr (m ((c : Thread nD τ).loc main_arg0)) (m ((c : Thread nD τ).loc main_arg1))
        (m ((c : Thread nD τ).loc main_arg6)) (m ((c : Thread nD τ).loc main_arg7)))
      (gateCol (m ((c : Thread nD τ).loc main_arg0)) (m ((c : Thread nD τ).loc main_arg1)) (m ((c : Thread nD τ).loc main_arg3))
        (m ((c : Thread nD τ).loc main_arg6)) (m ((c : Thread nD τ).loc main_arg7)))
      (m ((c : Thread nD τ).loc main_arg4)) (m ((c : Thread nD τ).loc main_arg5)))
    (m ((c : Thread nD τ).loc main_arg8)) (m ((c : Thread nD τ).loc main_arg9))
    (wtopArr (m ((c : Thread nD τ).loc main_arg10)))
    (qbArr (m ((c : Thread nD τ).loc main_arg3)) (m ((c : Thread nD τ).loc main_arg10)) (m ((c : Thread nD τ).loc main_arg11)))
    (m ((c : Thread nD τ).loc main_arg12)) (m ((c : Thread nD τ).loc main_arg13))

theorem W3_score (c : Dev nD) : W3 m ρ c (Proc.devRef .tc main_v25) = scoreOf m c := by
  refine (W3_arr m ρ c 8).trans ((final8 (V2 m ρ) c).trans ?_)
  unfold scoreOf
  rw [V2_arg2, V2_ctx, V2_arg8, V2_arg9, V2_wtop, V2_qb, V2_arg12, V2_arg13]

/-- THE RESULT: the flattened score column of the argument arrays. -/
theorem W4_result (c : Dev nD) : W4 m ρ c (Proc.devRef .tc main_v26)
    = shapeCast S20000 (scoreOf m c) shapeCasts_S20000x1_S20000 := by
  have h : W4 m ρ c (Proc.devRef .tc main_v26) = shapeCast S20000 (W3 m ρ c (Proc.devRef .tc main_v25)) shapeCasts_S20000x1_S20000 := by
    show StableHlo.after hostOps2 (W3 m ρ c) (Proc.devRef .tc main_v26) = _
    after_results_simp
    rfl
  rw [h, W3_score]

end Cert.KernelIdeal.Fold

end
-- ==== Proof.RefRead.lean ====
/-
  The reference program's stages read at an index.

  Entity features: row `r` of the blend `0.9·u + 0.1·v` is normalised — the row mean is the row sum over 256, the
  variance the mean of the squared deviations, and the result `(x − mean) · rsqrt(var + ε) · γ + β`.  The gate is
  `1 / (1 + exp(−t))` at the inner product `t` of the features with the query, which is the logistic of `t`.
  Passage score: the passage's row plus its context row is normalised the same way; the normalised row joined with
  the query along the columns is multiplied by a 512-row weight matrix, and the sum over the 512 joined columns is
  the normalised row against the upper 256 rows plus the query against the lower 256 rows; adding the bias,
  rectifying, and taking the product with the output weights plus the output bias gives the score.  Every reduce
  starts from the zero word, which denotes 0.
-/
import proofs.«110260_j21887153340681_1_alg».proof.Proof.Gen.ReferenceIdeal.Read
import proofs.«110260_j21887153340681_1_alg».proof.Proof.Spec
import Idealize.ShloMosaic.PureOps.Ideal.Laws
import Idealize.ShloMosaic.Lib.ValueIdx
import Idealize.ShloMosaic.Lib.Pipeline.Value

noncomputable section

namespace Cert.Score.RefRead

open Idealize.ShloMosaic Idealize.ShloMosaic.ValueIdx Cert.ReferenceIdeal Cert.ReferenceIdeal.Read Cert.Score

/-- The contents of a float array of shape `s`, at the extended reals. -/
abbrev C (s : Shape) := (⟨s, .f32⟩ : BufTy).Contents (Elt Ideal)
/-- The contents of an integer array of shape `s`. -/
abbrev CI (s : Shape) := (⟨s, .i32⟩ : BufTy).Contents (Elt Ideal)

/-! ## The entity layer normalisation, one stage at a time -/

/-- The row sum of the input: the reduce's initial value is the zero word, which denotes 0. -/
theorem e_sum (x0 x1 : C S100000x256) (r : Fin 100000) :
    val_main_v5 (F := Ideal) x0 x1 (ix1 r) = ∑ k : Fin 256, val_main_v4 (F := Ideal) x0 x1 (ix2 r k) := by
  rw [val_main_v5_apply, val_main_cst_1_apply, Ideal.ofBits_def, Ideal.ofBits_zero_f32, zero_add]
  refine Finset.sum_congr rfl fun k _ => congrArg _ ?_
  exact funext fun a => Fin.ext (by match a with | ⟨0, _⟩ => rfl | ⟨1, _⟩ => rfl)

/-- The mean column holds, in row `r`, the mean of row `r`. -/
theorem e_mean (x0 x1 : C S100000x256) (r : Fin 100000) (u : Fin 1) :
    val_main_v8 (F := Ideal) x0 x1 (ix2 r u) = mean (fun k => val_main_v4 (F := Ideal) x0 x1 (ix2 r k)) := by
  rw [val_main_v8_apply, val_main_v6_apply, val_main_v7_apply, val_main_cst_2_apply]
  have e : idx_main_v6 (ix2 r u) = ix1 r := funext fun a => Fin.ext (by match a with | ⟨0, _⟩ => rfl)
  rw [e, e_sum]
  rfl

/-- The input minus its row mean spread over the columns: the centred row. -/
theorem e_centred (x0 x1 : C S100000x256) (r : Fin 100000) (q : Fin 256) :
    val_main_v10 (F := Ideal) x0 x1 (ix2 r q) = centred (fun k => val_main_v4 (F := Ideal) x0 x1 (ix2 r k)) q := by
  rw [val_main_v10_apply, val_main_v9_apply]
  have e : idx_main_v9 (ix2 r q) = ix2 r (0 : Fin 1) := funext fun a => Fin.ext (by match a with | ⟨0, _⟩ => rfl | ⟨1, _⟩ => rfl)
  rw [e, e_mean]
  rfl

/-- The second copy of the centred row (the program subtracts the mean twice). -/
theorem e_centred' (x0 x1 : C S100000x256) (r : Fin 100000) (q : Fin 256) :
    val_main_v17 (F := Ideal) x0 x1 (ix2 r q) = centred (fun k => val_main_v4 (F := Ideal) x0 x1 (ix2 r k)) q := by
  rw [val_main_v17_apply, val_main_v16_apply]
  have e : idx_main_v16 (ix2 r q) = ix2 r (0 : Fin 1) := funext fun a => Fin.ext (by match a with | ⟨0, _⟩ => rfl | ⟨1, _⟩ => rfl)
  rw [e, e_mean]
  rfl

/-- The row sum of the squared deviations. -/
theorem e_sqsum (x0 x1 : C S100000x256) (r : Fin 100000) :
    val_main_v12 (F := Ideal) x0 x1 (ix1 r) = ∑ k : Fin 256, centred (fun k => val_main_v4 (F := Ideal) x0 x1 (ix2 r k)) k * centred (fun k => val_main_v4 (F := Ideal) x0 x1 (ix2 r k)) k := by
  rw [val_main_v12_apply, val_main_cst_3_apply, Ideal.ofBits_def, Ideal.ofBits_zero_f32, zero_add]
  refine Finset.sum_congr rfl fun k _ => ?_
  have e : idx_main_v12 (ix1 r) k = ix2 r k := funext fun a => Fin.ext (by match a with | ⟨0, _⟩ => rfl | ⟨1, _⟩ => rfl)
  rw [e, val_main_v11_apply, e_centred]
  rfl

/-- The variance column: the mean of the squared deviations. -/
theorem e_var (x0 x1 : C S100000x256) (r : Fin 100000) (u : Fin 1) :
    val_main_v15 (F := Ideal) x0 x1 (ix2 r u) = mean (fun k => centred (fun k => val_main_v4 (F := Ideal) x0 x1 (ix2 r k)) k * centred (fun k => val_main_v4 (F := Ideal) x0 x1 (ix2 r k)) k) := by
  rw [val_main_v15_apply, val_main_v13_apply, val_main_v14_apply, val_main_cst_4_apply]
  have e : idx_main_v13 (ix2 r u) = ix1 r := funext fun a => Fin.ext (by match a with | ⟨0, _⟩ => rfl)
  rw [e, e_sqsum]
  rfl

/-- The reciprocal standard deviation column. -/
theorem e_invStd (x0 x1 : C S100000x256) (r : Fin 100000) (u : Fin 1) :
    val_main_v20 (F := Ideal) x0 x1 (ix2 r u) = invStd (fun k => val_main_v4 (F := Ideal) x0 x1 (ix2 r k)) := by
  rw [val_main_v20_apply, val_main_v19_apply, e_var, val_main_v18_apply, val_main_cst_5_apply]
  rfl

/-- The centred row scaled by the reciprocal standard deviation. -/
theorem e_normed (x0 x1 : C S100000x256) (r : Fin 100000) (q : Fin 256) :
    val_main_v22 (F := Ideal) x0 x1 (ix2 r q) = centred (fun k => val_main_v4 (F := Ideal) x0 x1 (ix2 r k)) q * invStd (fun k => val_main_v4 (F := Ideal) x0 x1 (ix2 r k)) := by
  rw [val_main_v22_apply, e_centred', val_main_v21_apply]
  have e : idx_main_v21 (ix2 r q) = ix2 r (0 : Fin 1) := funext fun a => Fin.ext (by match a with | ⟨0, _⟩ => rfl | ⟨1, _⟩ => rfl)
  rw [e, e_invStd]
  rfl

/-- The scale vector spread over the rows reads, at `(r, q)`, its entry `q`. -/
theorem e_gamma (x6 : C S256) (r : Fin 100000) (q : Fin 256) :
    val_main_v24 (F := Ideal) x6 (ix2 r q) = x6 (ix1 q) := by
  rw [val_main_v24_apply, val_main_v23_apply]
  exact congrArg _ (funext fun a => Fin.ext (by match a with | ⟨0, _⟩ => rfl))

/-- The shift vector spread over the rows reads, at `(r, q)`, its entry `q`. -/
theorem e_beta (x7 : C S256) (r : Fin 100000) (q : Fin 256) :
    val_main_v27 (F := Ideal) x7 (ix2 r q) = x7 (ix1 q) := by
  rw [val_main_v27_apply, val_main_v26_apply]
  exact congrArg _ (funext fun a => Fin.ext (by match a with | ⟨0, _⟩ => rfl))

/-- The normalised array at `(r, q)` is the layer normalisation of row `r` of the input, at `q`. -/
theorem e_layerNorm (x0 x1 : C S100000x256) (x6 x7 : C S256) (r : Fin 100000) (q : Fin 256) :
    val_main_v28 (F := Ideal) x0 x1 x6 x7 (ix2 r q)
      = layerNorm (fun k => val_main_v4 (F := Ideal) x0 x1 (ix2 r k)) (fun k => x6 (ix1 k)) (fun k => x7 (ix1 k)) q := by
  rw [val_main_v28_apply, val_main_v25_apply, e_normed, e_gamma, e_beta]
  rfl

/-- The blended input at `(r, k)`. -/
theorem e_blend (x0 x1 : C S100000x256) (r : Fin 100000) (k : Fin 256) :
    val_main_v4 (F := Ideal) x0 x1 (ix2 r k) = blend (fun k => x0 (ix2 r k)) (fun k => x1 (ix2 r k)) k := by
  rw [val_main_v4_apply, val_main_v1_apply, val_main_v3_apply, val_main_v0_apply, val_main_v2_apply,
    val_main_cst_apply, val_main_cst_0_apply]
  rfl

/-- The entity features at `(r, q)`: the normalised blend of the entity's two feature rows. -/
theorem features_apply (x0 x1 : C S100000x256) (x6 x7 : C S256) (r : Fin 100000) (q : Fin 256) :
    val_main_v28 (F := Ideal) x0 x1 x6 x7 (ix2 r q)
      = entRow (fun k => x0 (ix2 r k)) (fun k => x1 (ix2 r k)) (fun k => x6 (ix1 k)) (fun k => x7 (ix1 k)) q := by
  rw [e_layerNorm]
  have e : (fun k => val_main_v4 (F := Ideal) x0 x1 (ix2 r k)) = blend (fun k => x0 (ix2 r k)) (fun k => x1 (ix2 r k)) :=
    funext fun k => e_blend x0 x1 r k
  rw [e]
  rfl

/-- The float word of one denotes 1. -/
theorem ofBits_one_f32 : Ideal.ofBits .f32 0x3F800000#32 = 1 := by
  simp [Ideal.ofBits, Ideal.ieee, -EReal.coe_mul]; norm_num

/-- The query row spread over the entities reads, at `(r, k)`, the query's entry `k`. -/
theorem e_query (x3 : C S1x256) (r : Fin 100000) (k : Fin 256) :
    val_main_v29 (F := Ideal) x3 (ix2 r k) = x3 (ix2 (0 : Fin 1) k) := by
  rw [val_main_v29_apply]
  exact congrArg _ (funext fun a => Fin.ext (by match a with | ⟨0, _⟩ => rfl | ⟨1, _⟩ => rfl))

/-- The gate's argument: the inner product of an entity's features with the query. -/
theorem e_logit (x0 x1 : C S100000x256) (x3 : C S1x256) (x6 x7 : C S256) (r : Fin 100000) :
    val_main_v31 (F := Ideal) x0 x1 x3 x6 x7 (ix1 r)
      = ∑ k : Fin 256, val_main_v28 (F := Ideal) x0 x1 x6 x7 (ix2 r k) * x3 (ix2 (0 : Fin 1) k) := by
  rw [val_main_v31_apply, val_main_cst_6_apply, Ideal.ofBits_def, Ideal.ofBits_zero_f32, zero_add]
  refine Finset.sum_congr rfl fun k _ => ?_
  have e : idx_main_v31 (ix1 r) k = ix2 r k := funext fun a => Fin.ext (by match a with | ⟨0, _⟩ => rfl | ⟨1, _⟩ => rfl)
  rw [e, val_main_v30_apply, e_query]
  rfl

/-- The gate of entity `r`: `1 / (1 + exp (−t))` is the logistic of the inner product `t`. -/
theorem gate_apply (x0 x1 : C S100000x256) (x3 : C S1x256) (x6 x7 : C S256) (r : Fin 100000) :
    val_main_v37 (F := Ideal) x0 x1 x3 x6 x7 (ix1 r)
      = gate (entRow (fun k => x0 (ix2 r k)) (fun k => x1 (ix2 r k)) (fun k => x6 (ix1 k)) (fun k => x7 (ix1 k))) (fun k => x3 (ix2 (0 : Fin 1) k)) := by
  rw [val_main_v37_apply, val_main_v36_apply, val_main_cst_8_apply, val_main_v35_apply, val_main_v34_apply,
    val_main_cst_7_apply, val_main_v33_apply, val_main_v32_apply, e_logit]
  simp only [Ideal.ofBits_def, Ideal.hostDivf_def, Ideal.addf_def, Ideal.hostUnary_exp_def, Ideal.hostNegf_def,
    Ideal.negf_def, ofBits_one_f32]
  unfold gate Ideal.logistic
  refine congrArg (fun s => Ideal.div 1 (1 + Ideal.exp (-s))) (Finset.sum_congr rfl fun k _ => ?_)
  rw [features_apply]

/-! ## The passage layer normalisation, one stage at a time -/

/-- The row sum of the input: the reduce's initial value is the zero word, which denotes 0. -/
theorem p_sum (x0 x1 : C S100000x256) (x2 : C S20000x256) (x3 : C S1x256) (x4 x5 : CI S500000) (x6 x7 : C S256) (r : Fin 20000) :
    val_main_v59 (F := Ideal) x0 x1 x2 x3 x4 x5 x6 x7 (ix1 r) = ∑ k : Fin 256, val_main_v58 (F := Ideal) x0 x1 x2 x3 x4 x5 x6 x7 (ix2 r k) := by
  rw [val_main_v59_apply, val_main_cst_13_apply, Ideal.ofBits_def, Ideal.ofBits_zero_f32, zero_add]
  refine Finset.sum_congr rfl fun k _ => congrArg _ ?_
  exact funext fun a => Fin.ext (by match a with | ⟨0, _⟩ => rfl | ⟨1, _⟩ => rfl)

/-- The mean column holds, in row `r`, the mean of row `r`. -/
theorem p_mean (x0 x1 : C S100000x256) (x2 : C S20000x256) (x3 : C S1x256) (x4 x5 : CI S500000) (x6 x7 : C S256) (r : Fin 20000) (u : Fin 1) :
    val_main_v62 (F := Ideal) x0 x1 x2 x3 x4 x5 x6 x7 (ix2 r u) = mean (fun k => val_main_v58 (F := Ideal) x0 x1 x2 x3 x4 x5 x6 x7 (ix2 r k)) := by
  rw [val_main_v62_apply, val_main_v60_apply, val_main_v61_apply, val_main_cst_14_apply]
  have e : idx_main_v60 (ix2 r u) = ix1 r := funext fun a => Fin.ext (by match a with | ⟨0, _⟩ => rfl)
  rw [e, p_sum]
  rfl

/-- The input minus its row mean spread over the columns: the centred row. -/
theorem p_centred (x0 x1 : C S100000x256) (x2 : C S20000x256) (x3 : C S1x256) (x4 x5 : CI S500000) (x6 x7 : C S256) (r : Fin 20000) (q : Fin 256) :
    val_main_v64 (F := Ideal) x0 x1 x2 x3 x4 x5 x6 x7 (ix2 r q) = centred (fun k => val_main_v58 (F := Ideal) x0 x1 x2 x3 x4 x5 x6 x7 (ix2 r k)) q := by
  rw [val_main_v64_apply, val_main_v63_apply]
  have e : idx_main_v63 (ix2 r q) = ix2 r (0 : Fin 1) := funext fun a => Fin.ext (by match a with | ⟨0, _⟩ => rfl | ⟨1, _⟩ => rfl)
  rw [e, p_mean]
  rfl

/-- The second copy of the centred row (the program subtracts the mean twice). -/
theorem p_centred' (x0 x1 : C S100000x256) (x2 : C S20000x256) (x3 : C S1x256) (x4 x5 : CI S500000) (x6 x7 : C S256) (r : Fin 20000) (q : Fin 256) :
    val_main_v71 (F := Ideal) x0 x1 x2 x3 x4 x5 x6 x7 (ix2 r q) = centred (fun k => val_main_v58 (F := Ideal) x0 x1 x2 x3 x4 x5 x6 x7 (ix2 r k)) q := by
  rw [val_main_v71_apply, val_main_v70_apply]
  have e : idx_main_v70 (ix2 r q) = ix2 r (0 : Fin 1) := funext fun a => Fin.ext (by match a with | ⟨0, _⟩ => rfl | ⟨1, _⟩ => rfl)
  rw [e, p_mean]
  rfl

/-- The row sum of the squared deviations. -/
theorem p_sqsum (x0 x1 : C S100000x256) (x2 : C S20000x256) (x3 : C S1x256) (x4 x5 : CI S500000) (x6 x7 : C S256) (r : Fin 20000) :
    val_main_v66 (F := Ideal) x0 x1 x2 x3 x4 x5 x6 x7 (ix1 r) = ∑ k : Fin 256, centred (fun k => val_main_v58 (F := Ideal) x0 x1 x2 x3 x4 x5 x6 x7 (ix2 r k)) k * centred (fun k => val_main_v58 (F := Ideal) x0 x1 x2 x3 x4 x5 x6 x7 (ix2 r k)) k := by
  rw [val_main_v66_apply, val_main_cst_15_apply, Ideal.ofBits_def, Ideal.ofBits_zero_f32, zero_add]
  refine Finset.sum_congr rfl fun k _ => ?_
  have e : idx_main_v66 (ix1 r) k = ix2 r k := funext fun a => Fin.ext (by match a with | ⟨0, _⟩ => rfl | ⟨1, _⟩ => rfl)
  rw [e, val_main_v65_apply, p_centred]
  rfl

/-- The variance column: the mean of the squared deviations. -/
theorem p_var (x0 x1 : C S100000x256) (x2 : C S20000x256) (x3 : C S1x256) (x4 x5 : CI S500000) (x6 x7 : C S256) (r : Fin 20000) (u : Fin 1) :
    val_main_v69 (F := Ideal) x0 x1 x2 x3 x4 x5 x6 x7 (ix2 r u) = mean (fun k => centred (fun k => val_main_v58 (F := Ideal) x0 x1 x2 x3 x4 x5 x6 x7 (ix2 r k)) k * centred (fun k => val_main_v58 (F := Ideal) x0 x1 x2 x3 x4 x5 x6 x7 (ix2 r k)) k) := by
  rw [val_main_v69_apply, val_main_v67_apply, val_main_v68_apply, val_main_cst_16_apply]
  have e : idx_main_v67 (ix2 r u) = ix1 r := funext fun a => Fin.ext (by match a with | ⟨0, _⟩ => rfl)
  rw [e, p_sqsum]
  rfl

/-- The reciprocal standard deviation column. -/
theorem p_invStd (x0 x1 : C S100000x256) (x2 : C S20000x256) (x3 : C S1x256) (x4 x5 : CI S500000) (x6 x7 : C S256) (r : Fin 20000) (u : Fin 1) :
    val_main_v74 (F := Ideal) x0 x1 x2 x3 x4 x5 x6 x7 (ix2 r u) = invStd (fun k => val_main_v58 (F := Ideal) x0 x1 x2 x3 x4 x5 x6 x7 (ix2 r k)) := by
  rw [val_main_v74_apply, val_main_v73_apply, p_var, val_main_v72_apply, val_main_cst_17_apply]
  rfl

/-- The centred row scaled by the reciprocal standard deviation. -/
theorem p_normed (x0 x1 : C S100000x256) (x2 : C S20000x256) (x3 : C S1x256) (x4 x5 : CI S500000) (x6 x7 : C S256) (r : Fin 20000) (q : Fin 256) :
    val_main_v76 (F := Ideal) x0 x1 x2 x3 x4 x5 x6 x7 (ix2 r q) = centred (fun k => val_main_v58 (F := Ideal) x0 x1 x2 x3 x4 x5 x6 x7 (ix2 r k)) q * invStd (fun k => val_main_v58 (F := Ideal) x0 x1 x2 x3 x4 x5 x6 x7 (ix2 r k)) := by
  rw [val_main_v76_apply, p_centred', val_main_v75_apply]
  have e : idx_main_v75 (ix2 r q) = ix2 r (0 : Fin 1) := funext fun a => Fin.ext (by match a with | ⟨0, _⟩ => rfl | ⟨1, _⟩ => rfl)
  rw [e, p_invStd]
  rfl

/-- The scale vector spread over the rows reads, at `(r, q)`, its entry `q`. -/
theorem p_gamma (x8 : C S256) (r : Fin 20000) (q : Fin 256) :
    val_main_v78 (F := Ideal) x8 (ix2 r q) = x8 (ix1 q) := by
  rw [val_main_v78_apply, val_main_v77_apply]
  exact congrArg _ (funext fun a => Fin.ext (by match a with | ⟨0, _⟩ => rfl))

/-- The shift vector spread over the rows reads, at `(r, q)`, its entry `q`. -/
theorem p_beta (x9 : C S256) (r : Fin 20000) (q : Fin 256) :
    val_main_v81 (F := Ideal) x9 (ix2 r q) = x9 (ix1 q) := by
  rw [val_main_v81_apply, val_main_v80_apply]
  exact congrArg _ (funext fun a => Fin.ext (by match a with | ⟨0, _⟩ => rfl))

/-- The normalised array at `(r, q)` is the layer normalisation of row `r` of the input, at `q`. -/
theorem p_layerNorm (x0 x1 : C S100000x256) (x2 : C S20000x256) (x3 : C S1x256) (x4 x5 : CI S500000) (x6 x7 : C S256) (x8 x9 : C S256) (r : Fin 20000) (q : Fin 256) :
    val_main_v82 (F := Ideal) x0 x1 x2 x3 x4 x5 x6 x7 x8 x9 (ix2 r q)
      = layerNorm (fun k => val_main_v58 (F := Ideal) x0 x1 x2 x3 x4 x5 x6 x7 (ix2 r k)) (fun k => x8 (ix1 k)) (fun k => x9 (ix1 k)) q := by
  rw [val_main_v82_apply, val_main_v79_apply, p_normed, p_gamma, p_beta]
  rfl

/-- A sum over 512 indices is the sum over the first 256 plus the sum over the last 256. -/
theorem sum_split (f : Fin 512 → EReal) :
    ∑ k : Fin 512, f k = (∑ k : Fin 256, f ⟨k.val, by omega⟩) + ∑ k : Fin 256, f ⟨256 + k.val, by omega⟩ :=
  Fin.sum_univ_add (a := 256) (b := 256) (f : Fin (256 + 256) → EReal)

/-- Two 20000×256 arrays joined along the columns: a column below 256 reads the first array. -/
theorem cat_left (A B : C S20000x256) (h : Shape.Concatenates [S20000x256, S20000x256] S20000x512 1)
    (p : Fin 20000) (k : Fin 256) :
    concatenate S20000x512 1 [⟨S20000x256, A⟩, ⟨S20000x256, B⟩] h (ix2 p (⟨k.val, by omega⟩ : Fin 512)) = A (ix2 p k) :=
  concatenate_pair_apply_left 1 A B h _ rfl (ix2 p k) (fun b => by match b with | ⟨0, _⟩ => rfl | ⟨1, _⟩ => rfl)

/-- Two 20000×256 arrays joined along the columns: column `256 + k` reads the second array at column `k`. -/
theorem cat_right (A B : C S20000x256) (h : Shape.Concatenates [S20000x256, S20000x256] S20000x512 1)
    (p : Fin 20000) (k : Fin 256) :
    concatenate S20000x512 1 [⟨S20000x256, A⟩, ⟨S20000x256, B⟩] h (ix2 p (⟨256 + k.val, by omega⟩ : Fin 512)) = B (ix2 p k) :=
  concatenate_pair_apply_right 1 A B h _ rfl rfl (ix2 p k)
    (fun b hb => by match b, hb with | ⟨0, _⟩, _ => rfl | ⟨1, _⟩, hb => exact absurd rfl hb)
    (by show k.val + 256 = 256 + k.val; omega)

/-- The query row spread over the passages reads, at `(p, k)`, the query's entry `k`. -/
theorem p_query (x3 : C S1x256) (p : Fin 20000) (k : Fin 256) :
    val_main_v83 (F := Ideal) x3 (ix2 p k) = x3 (ix2 (0 : Fin 1) k) := by
  rw [val_main_v83_apply]
  exact congrArg _ (funext fun a => Fin.ext (by match a with | ⟨0, _⟩ => rfl | ⟨1, _⟩ => rfl))

/-- The joined array's first 256 columns are the normalised passage rows. -/
theorem p_cat_top (x0 x1 : C S100000x256) (x2 : C S20000x256) (x3 : C S1x256) (x4 x5 : CI S500000) (x6 x7 x8 x9 : C S256) (p : Fin 20000) (k : Fin 256) :
    val_main_v84 (F := Ideal) x0 x1 x2 x3 x4 x5 x6 x7 x8 x9 (ix2 p (⟨k.val, by omega⟩ : Fin 512))
      = val_main_v82 (F := Ideal) x0 x1 x2 x3 x4 x5 x6 x7 x8 x9 (ix2 p k) := by
  unfold val_main_v84
  exact cat_left _ _ _ p k

/-- The joined array's last 256 columns are the query row. -/
theorem p_cat_bot (x0 x1 : C S100000x256) (x2 : C S20000x256) (x3 : C S1x256) (x4 x5 : CI S500000) (x6 x7 x8 x9 : C S256) (p : Fin 20000) (k : Fin 256) :
    val_main_v84 (F := Ideal) x0 x1 x2 x3 x4 x5 x6 x7 x8 x9 (ix2 p (⟨256 + k.val, by omega⟩ : Fin 512))
      = x3 (ix2 (0 : Fin 1) k) := by
  unfold val_main_v84
  exact (cat_right _ _ _ p k).trans (p_query x3 p k)

/-- The first layer's bias spread over the passages reads, at `(p, j)`, its entry `j`. -/
theorem p_bias1 (x11 : C S256) (p : Fin 20000) (j : Fin 256) :
    val_main_v87 (F := Ideal) x11 (ix2 p j) = x11 (ix1 j) := by
  rw [val_main_v87_apply, val_main_v86_apply]
  exact congrArg _ (funext fun a => Fin.ext (by match a with | ⟨0, _⟩ => rfl))

/-- The hidden layer's input at `(p, j)`: the product over the 512 joined columns splits into the normalised row
    against the upper rows of the weights plus the query against the lower rows; the query's share and the bias are
    regrouped by associativity of the sum. -/
theorem p_pre (x0 x1 : C S100000x256) (x2 : C S20000x256) (x3 : C S1x256) (x4 x5 : CI S500000) (x6 x7 x8 x9 : C S256) (x10 : C S512x256) (x11 : C S256) (p : Fin 20000) (j : Fin 256) :
    val_main_v88 (F := Ideal) x0 x1 x2 x3 x4 x5 x6 x7 x8 x9 x10 x11 (ix2 p j)
      = (∑ k : Fin 256, val_main_v82 (F := Ideal) x0 x1 x2 x3 x4 x5 x6 x7 x8 x9 (ix2 p k) * topRows (fun a b => x10 (ix2 a b)) k j) + (queryBias (fun k => x3 (ix2 (0 : Fin 1) k)) (botRows (fun a b => x10 (ix2 a b))) (fun j => x11 (ix1 j))) j := by
  rw [val_main_v88_apply, val_main_v85_apply, p_bias1]
  have eL : ∀ k : Fin 512, lidx_main_v85 (ix2 p j) k = ix2 p k := fun k =>
    funext fun a => Fin.ext (by match a with | ⟨0, _⟩ => rfl | ⟨1, _⟩ => rfl)
  have eR : ∀ k : Fin 512, ridx_main_v85 (ix2 p j) k = ix2 k j := fun k =>
    funext fun a => Fin.ext (by match a with | ⟨0, _⟩ => rfl | ⟨1, _⟩ => rfl)
  simp only [eL, eR]
  rw [sum_split]
  refine (add_assoc _ _ _).trans ?_
  refine congrArg₂ (· + ·) (Finset.sum_congr rfl fun k _ => ?_) (congrArg (· + _) (Finset.sum_congr rfl fun k _ => ?_))
  · rw [p_cat_top]
    rfl
  · rw [p_cat_bot]
    rfl

/-- The hidden layer at `(p, j)`: the rectified input; the rectifier's floor is the zero word. -/
theorem p_hidden (x0 x1 : C S100000x256) (x2 : C S20000x256) (x3 : C S1x256) (x4 x5 : CI S500000) (x6 x7 x8 x9 : C S256) (x10 : C S512x256) (x11 : C S256) (p : Fin 20000) (j : Fin 256) :
    val_main_v89 (F := Ideal) x0 x1 x2 x3 x4 x5 x6 x7 x8 x9 x10 x11 (ix2 p j)
      = hidden (fun k => val_main_v82 (F := Ideal) x0 x1 x2 x3 x4 x5 x6 x7 x8 x9 (ix2 p k)) (topRows (fun a b => x10 (ix2 a b))) (queryBias (fun k => x3 (ix2 (0 : Fin 1) k)) (botRows (fun a b => x10 (ix2 a b))) (fun j => x11 (ix1 j))) j := by
  rw [val_main_v89_apply, p_pre, val_main_call0_v0_apply, val_main_call0_cst_apply]
  rfl

/-- The passage's input row: its own features plus its aggregated context. -/
theorem p_input (x0 x1 : C S100000x256) (x2 : C S20000x256) (x3 : C S1x256) (x4 x5 : CI S500000) (x6 x7 : C S256) (p : Fin 20000) (k : Fin 256) :
    val_main_v58 (F := Ideal) x0 x1 x2 x3 x4 x5 x6 x7 (ix2 p k) = x2 (ix2 p k) + val_main_v57 (F := Ideal) x0 x1 x3 x4 x5 x6 x7 (ix2 p k) := by
  rw [val_main_v58_apply]
  rfl

/-- The normalised passage features at `(p, q)`. -/
theorem p_features (x0 x1 : C S100000x256) (x2 : C S20000x256) (x3 : C S1x256) (x4 x5 : CI S500000) (x6 x7 x8 x9 : C S256) (p : Fin 20000) (q : Fin 256) :
    val_main_v82 (F := Ideal) x0 x1 x2 x3 x4 x5 x6 x7 x8 x9 (ix2 p q)
      = psgRow (fun k => x2 (ix2 p k)) (fun k => val_main_v57 (F := Ideal) x0 x1 x3 x4 x5 x6 x7 (ix2 p k))
          (fun k => x8 (ix1 k)) (fun k => x9 (ix1 k)) q := by
  have e := p_layerNorm x0 x1 x2 x3 x4 x5 x6 x7 x8 x9 p q
  have e' : (fun k => val_main_v58 (F := Ideal) x0 x1 x2 x3 x4 x5 x6 x7 (ix2 p k))
      = fun k => x2 (ix2 p k) + val_main_v57 (F := Ideal) x0 x1 x3 x4 x5 x6 x7 (ix2 p k) :=
    funext fun k => p_input x0 x1 x2 x3 x4 x5 x6 x7 p k
  rw [e'] at e
  exact e

/-- The score of passage `p`: the hidden layer against the output weights, plus the output bias. -/
theorem score_apply (x0 x1 : C S100000x256) (x2 : C S20000x256) (x3 : C S1x256) (x4 x5 : CI S500000) (x6 x7 x8 x9 : C S256) (x10 : C S512x256) (x11 : C S256) (x12 : C S256x1) (x13 : C S1) (p : Fin 20000) :
    val_main_v94 (F := Ideal) x0 x1 x2 x3 x4 x5 x6 x7 x8 x9 x10 x11 x12 x13 (ix1 p)
      = score (hidden (psgRow (fun k => x2 (ix2 p k)) (fun k => val_main_v57 (F := Ideal) x0 x1 x3 x4 x5 x6 x7 (ix2 p k)) (fun k => x8 (ix1 k)) (fun k => x9 (ix1 k)))
                (topRows fun a b => x10 (ix2 a b))
                (queryBias (fun k => x3 (ix2 (0 : Fin 1) k)) (botRows fun a b => x10 (ix2 a b)) (fun j => x11 (ix1 j))))
          (fun j => x12 (ix2 j (0 : Fin 1))) (x13 (ix1 (0 : Fin 1))) := by
  rw [val_main_v94_apply]
  have e : idx_main_v94 (ix1 p) = ix2 p (0 : Fin 1) :=
    funext fun a => Fin.ext (by match a with | ⟨0, _⟩ => exact Nat.div_one _ | ⟨1, _⟩ => rfl)
  rw [e, val_main_v93_apply, val_main_v90_apply, val_main_v92_apply, val_main_v91_apply]
  have eF : (fun k => val_main_v82 (F := Ideal) x0 x1 x2 x3 x4 x5 x6 x7 x8 x9 (ix2 p k))
      = psgRow (fun k => x2 (ix2 p k)) (fun k => val_main_v57 (F := Ideal) x0 x1 x3 x4 x5 x6 x7 (ix2 p k))
          (fun k => x8 (ix1 k)) (fun k => x9 (ix1 k)) :=
    funext fun k => p_features x0 x1 x2 x3 x4 x5 x6 x7 x8 x9 p k
  rw [← eF]
  unfold score
  refine congrArg₂ (· + ·) (Finset.sum_congr rfl fun k _ => ?_) (congrArg _ ?_)
  · have eL : lidx_main_v90 (ix2 p (0 : Fin 1)) k = ix2 p k :=
      funext fun a => Fin.ext (by match a with | ⟨0, _⟩ => rfl | ⟨1, _⟩ => rfl)
    have eR : ridx_main_v90 (ix2 p (0 : Fin 1)) k = ix2 k (0 : Fin 1) :=
      funext fun a => Fin.ext (by match a with | ⟨0, _⟩ => rfl | ⟨1, _⟩ => rfl)
    rw [eL, eR, p_hidden]
  · exact funext fun a => Fin.ext (by match a with | ⟨0, _⟩ => rfl)

end Cert.Score.RefRead

end
-- ==== Proof.LibRowGatherScatter.lean ====
/-
  The host's row gather and accumulating row scatter, each read at one entry, for any sizes.

  * The row gather `x[idx]` of an `[N, D]` array at `E` row indices (start indices `[E, 1]`, the operand's axis 0
    collapsed, slices `[1, D]`): entry `(e, q)` of the result is the operand's entry `(r, q)`, where `r` is the start
    word `idx[e, 0]` read as a signed integer and clamped into `[0, N − 1]`. The row `r` depends on the start word
    only: not on `D`, not on the operand.
  * The accumulating row scatter of `E` rows of width `D` into an `[N, D]` array (scatter indices `[E, 1]`, the
    operand's axis 0 inserted, update windows `[1, D]`), over the extended reals: entry `(n, q)` of the result is the
    operand's entry plus the sum of the updates' entries `(e, q)` over the rows `e` whose index word `idx[e, 0]`,
    read as a signed integer and NOT clamped, is `n`. The set of rows `e` landing on `n` depends on the index words
    only: not on `D`, the column, the operand or the updates.
-/
import Idealize.ShloMosaic.Lib.ValueIdx

noncomputable section

open scoped BigOperators

namespace Cert.Lib.RowGatherScatter

open Idealize.ShloMosaic Idealize.ShloMosaic.ValueIdx

/-! ## The row gather -/

/-- The dimension numbers of the row gather: operand `[N, D]`, start indices `[E, 1]`, result `[E, D]`; the result's
    axis 1 is the offset axis, the operand's axis 0 is collapsed and is the one the start index names, slices are
    `[1, D]`. Their conditions `wf` are decided on literal shapes. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row the gather reads for the start word `b`: `b` read as a signed integer and clamped into `[0, N − 1]`
    (a negative word reads row 0, a word beyond the last row reads the last row). -/
def srcRow (N : ℕ) (hN : 0 < N) {w : ℕ} (b : BitVec w) : Fin N := ⟨min b.toInt.toNat (N - 1), by omega⟩

/-- THE ROW GATHER READ AT `(e, q)`: the operand at row `srcRow (idx[e, 0])`, column `q`. -/
theorem gather_rows_apply {N E D w : ℕ} (hN : 0 < N)
    (wf : GatherDims.WF ⟨2, ![N, D]⟩ ⟨2, ![E, 1]⟩ ⟨2, ![E, D]⟩ [1] [0] [] [0] [] 1 ![1, D]) {α : Type}
    (x : (⟨2, ![N, D]⟩ : Shape).Idx → α) (idx : IVec ⟨2, ![E, 1]⟩ w) (e : Fin E) (q : Fin D) :
    Host.gather (rowGather N E D wf) x idx (ix2 e q) = x (ix2 (srcRow N hN (idx (ix2 e 0))) q) := by
  -- axis 0: collapsed, so no offset; the start is the clamped start word
  have h0 : (rowGather N E D wf).start (ix2 e q) idx 0 + (rowGather N E D wf).batchCoord (ix2 e q) 0
      + (rowGather N E D wf).offCoord (ix2 e q) 0 = (srcRow N hN (idx (ix2 e 0))).val := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: not named by the start index, so the start is 0; the offset is the column
  have h1 : (rowGather N E D wf).start (ix2 e q) idx 1 + (rowGather N E D wf).batchCoord (ix2 e q) 1
      + (rowGather N E D wf).offCoord (ix2 e q) 1 = q.val := by
    rw [GatherDims.batchCoord_eq_zero _ _ _ List.not_mem_nil]
    have hs : (rowGather N E D wf).start (ix2 e q) idx 1 = 0 := by
      unfold GatherDims.start
      exact dif_neg (fun h => absurd (List.mem_singleton.mp h) (show ¬ (1 : Fin 2) = 0 by decide))
    have ho : (rowGather N E D wf).offCoord (ix2 e q) 1 = q.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hs, ho]; omega
  unfold Host.gather
  congr 1
  funext a
  refine Fin.ext ?_
  match a with
  | ⟨0, _⟩ => exact h0
  | ⟨1, _⟩ => exact h1

/-! ## The accumulating row scatter -/

/-- An update's result index is a given operand index exactly when, on every operand axis, the start (read signed,
    not clamped) plus the window coordinate is that index's coordinate: in particular the sum is then inside the
    operand on every axis, which is the condition for the update to land at all. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · rintro rfl a
      have := h a
      show d.start j idx a + (d.window j a : ℤ) = (((d.start j idx a + (d.window j a : ℤ)).toNat : ℕ) : ℤ)
      omega
    · intro h'
      funext a
      refine Fin.ext ?_
      have := h' a
      show (d.start j idx a + (d.window j a : ℤ)).toNat = (i a).val
      omega
  · rename_i h
    constructor
    · intro h'; cases h'
    · intro h'
      exfalso; apply h; intro a
      have := h' a
      have := (i a).isLt
      constructor <;> omega

/-- The dimension numbers of the accumulating row scatter: operand `[N, D]`, scatter indices `[E, 1]`, updates
    `[E, D]`; the updates' axis 1 is the window axis, the operand's axis 0 is inserted and is the one the scatter
    index names. Their conditions `wf` are decided on literal shapes. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N E D w : ℕ} (wf : ScatterDims.WF ⟨2, ![N, D]⟩ ⟨2, ![E, 1]⟩ ⟨2, ![E, D]⟩ [1] [0] [0] 1)
  (idx : IVec ⟨2, ![E, 1]⟩ w) (e : Fin E) (q' : Fin D)

/-- On the operand's axis 0 the start of update `(e, q')` is the index word `idx[e, 0]` read signed … -/
theorem rowScatter_start_row : (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2)
      (rowScatter N E D wf).scatterDimsToOperandDims, List.idxOf_lt_length_iff.2 (List.mem_singleton.mpr rfl)⟩
      = ix2 e 0 := by
    funext b; refine Fin.ext ?_
    match b with
    | ⟨0, _⟩ => rfl
    | ⟨1, _⟩ => rfl
  rw [hsi]

/-- … and on axis 1, which the scatter index does not name, it is 0. -/
theorem rowScatter_start_col : (rowScatter N E D wf).start (ix2 e q') idx 1 = 0 := by
  unfold ScatterDims.start
  exact dif_neg (fun h => absurd (List.mem_singleton.mp h) (show ¬ (1 : Fin 2) = 0 by decide))

/-- The window coordinate of update `(e, q')` is 0 on the inserted axis 0 … -/
theorem rowScatter_window_row : (rowScatter N E D wf).window (ix2 e q') 0 = 0 := by
  unfold ScatterDims.window
  refine dif_neg (fun h => ?_)
  have h2 := of_decide_eq_true (List.mem_filter.mp h).2
  exact h2 (List.mem_singleton.mpr rfl)

/-- … and the update's column `q'` on axis 1. -/
theorem rowScatter_window_col : (rowScatter N E D wf).window (ix2 e q') 1 = q'.val := by
  unfold ScatterDims.window
  rw [dif_pos (show (1 : Fin 2) ∈ (rowScatter N E D wf).sKept from List.mem_filter.mpr ⟨List.mem_finRange _,
    decide_eq_true (fun h => absurd (List.mem_singleton.mp h) (show ¬ (1 : Fin 2) = 0 by decide))⟩)]
  rfl

/-- Update `(e, q')` lands on the operand's entry `(n, q)` exactly when the index word `idx[e, 0]`, read signed, is
    `n` and the columns agree. -/
theorem rowScatter_resultIdx?_iff (n : Fin N) (q : Fin D) :
    (rowScatter N E D wf).resultIdx? (ix2 e q') idx = some (ix2 n q)
      ↔ (idx (ix2 e 0)).toInt = (n.val : ℤ) ∧ q' = q := by
  rw [resultIdx?_eq_some_iff]
  constructor
  · intro h
    have h0 := h 0
    have h1 := h 1
    rw [rowScatter_start_row, rowScatter_window_row] at h0
    rw [rowScatter_start_col, rowScatter_window_col] at h1
    refine ⟨?_, Fin.ext ?_⟩
    · have : ((ix2 n q : (⟨2, ![N, D]⟩ : Shape).Idx) 0).val = n.val := rfl
      omega
    · have : ((ix2 n q : (⟨2, ![N, D]⟩ : Shape).Idx) 1).val = q.val := rfl
      omega
  · rintro ⟨hn, rfl⟩ a
    match a with
    | ⟨0, _⟩ =>
      show (rowScatter N E D wf).start (ix2 e q') idx 0 + ((rowScatter N E D wf).window (ix2 e q') 0 : ℤ) = (n.val : ℤ)
      rw [rowScatter_start_row, rowScatter_window_row, hn]; simp
    | ⟨1, _⟩ =>
      show (rowScatter N E D wf).start (ix2 e q') idx 1 + ((rowScatter N E D wf).window (ix2 e q') 1 : ℤ) = (q'.val : ℤ)
      rw [rowScatter_start_col, rowScatter_window_col]; simp

end RowScatter

/-- THE ACCUMULATING ROW SCATTER READ AT `(n, q)`: the operand's entry plus the sum, over the update rows `e` whose
    index word `idx[e, 0]` read signed is `n`, of the updates' entries `(e, q)`. -/
theorem scatter_rows_apply {N E D w : ℕ} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (q : Fin D) :
    Ideal.hostScatterAdd (rowScatter N E D wf) x idx upd (ix2 n q)
      = x (ix2 n q) + ∑ e ∈ Finset.univ.filter (fun e : Fin E => (idx (ix2 e 0)).toInt = (n.val : ℤ)), upd (ix2 e q) := by
  unfold Ideal.hostScatterAdd
  -- the updates landing on (n, q) are the entries (e, q) of the rows e landing on n
  have himg : (Finset.univ.filter fun j => (rowScatter N E D wf).resultIdx? j idx = some (ix2 n q))
      = (Finset.univ.filter fun e : Fin E => (idx (ix2 e 0)).toInt = (n.val : ℤ)).image (fun e => ix2 e q) := by
    ext j
    obtain ⟨e, q', rfl⟩ : ∃ e q', j = ix2 e q' := ⟨j 0, j 1, eq_ix2 j⟩
    simp only [Finset.mem_filter, Finset.mem_univ, true_and, Finset.mem_image, rowScatter_resultIdx?_iff]
    constructor
    · rintro ⟨h, rfl⟩; exact ⟨e, h, rfl⟩
    · rintro ⟨e', h, heq⟩
      have h0 : e' = e := congrFun heq 0
      have h1 : q = q' := congrFun heq 1
      subst h0; exact ⟨h, h1.symm⟩
  rw [himg, Finset.sum_image (fun a _ b _ hab => (congrFun hab 0 : a = b))]

end Cert.Lib.RowGatherScatter

end
-- ==== Proof.LibVecGather.lean ====
/-
  A flat array gathered at a column of start indices, read at an entry.

  Indexing a length-N array by a list of E positions is a gather whose start indices form an E×1 array and whose
  result has one entry per position.  Entry `e` of the result is the array at the position word `idx[e, 0]`, read
  as a signed integer and clamped into `[0, N − 1]` (a negative word reads entry 0, a word beyond the end the last
  entry) — the same source position as for a row gather of an N×D matrix at the same start indices.
-/
import Idealize.ShloMosaic.Lib.ValueIdx

noncomputable section

namespace Cert.Lib.VecGather

open Idealize.ShloMosaic Idealize.ShloMosaic.ValueIdx

/-- The dimension numbers of the gather: operand `[N]`, start indices `[E, 1]`, result `[E]`; no offset axis, the
    operand's one axis collapsed and named by the start index, slices of one entry. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT `e`: the operand at the start word `idx[e, 0]`, read signed and clamped into `[0, N − 1]`. -/
theorem gather_vec_apply {N E w : ℕ} (hN : 0 < N)
    (wf : GatherDims.WF ⟨1, ![N]⟩ ⟨2, ![E, 1]⟩ ⟨1, ![E]⟩ [] [0] [] [0] [] 1 ![1]) {α : Type}
    (x : (⟨1, ![N]⟩ : Shape).Idx → α) (idx : IVec ⟨2, ![E, 1]⟩ w) (e : Fin E) :
    Host.gather (vecGather N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.VecGather

end
-- ==== Proof.CtxEq.lean ====
/-
  The aggregated context is the same array in both programs.

  Each program gathers, for every edge, the feature row and the gate of the edge's entity, multiplies them, and
  sums the products into the edge's passage row.  The gathered feature array is the same function of the inputs on
  both sides, read row by row.  The gate differs in form only: one program gathers it from a vector of 100000 gates
  and then makes a one-column array of the result, the other gathers it from the 100000×1 column directly; at edge
  `e` both read the gate of the same entity, the start word of `e` read signed and clamped into the 100000 rows.
-/
import proofs.«110260_j21887153340681_1_alg».proof.Proof.RefRead
import proofs.«110260_j21887153340681_1_alg».proof.Proof.Context
import proofs.«110260_j21887153340681_1_alg».proof.Proof.Blocks0
import proofs.«110260_j21887153340681_1_alg».proof.Proof.LibRowGatherScatter
import proofs.«110260_j21887153340681_1_alg».proof.Proof.LibVecGather

noncomputable section

namespace Cert.Score.CtxEq

open Idealize.ShloMosaic Idealize.ShloMosaic.ValueIdx Cert.ReferenceIdeal Cert.ReferenceIdeal.Read Cert.Score
open Cert.Score.RefRead Cert.Lib.RowGatherScatter Cert.Lib.VecGather

/-- The entity feature array is the entity function of the input rows, at every index. -/
theorem feat_eq (a0 a1 : C S100000x256) (a6 a7 : C S256) :
    val_main_v28 (F := Ideal) a0 a1 a6 a7 = Cert.KernelIdeal.Blocks0.entArr a0 a1 a6 a7 := by
  funext i
  obtain ⟨r, q, rfl⟩ : ∃ (r : Fin 100000) (q : Fin 256), i = ix2 r q := ⟨i 0, i 1, eq_ix2 i⟩
  exact features_apply a0 a1 a6 a7 r q

/-- Both programs compute the same start indices for their gathers. -/
theorem start_eq (a4 : CI S500000) : val_main_v50 (F := Ideal) a4 = Cert.KernelIdeal.Fold.wrapIdx a4 := rfl

/-- … and the feature gather's start indices are that array too. -/
theorem start_eq' (a4 : CI S500000) : val_main_v43 (F := Ideal) a4 = Cert.KernelIdeal.Fold.wrapIdx a4 := rfl

/-- The gathered gates as a one-column array: gathered from the vector of gates and then made a column, or gathered
    from the column of gates, entry `(e, u)` is the gate of the entity the start word of edge `e` names. -/
theorem gate_eq (a0 a1 : C S100000x256) (a3 : C S1x256) (a4 : CI S500000) (a6 a7 : C S256) :
    val_main_v52 (F := Ideal) a0 a1 a3 a4 a6 a7
      = Host.gather Cert.KernelIdeal.gather_S100000x1_S500000x1_S500000x1_1_0_n_n_0_1_11
          (Cert.KernelIdeal.Blocks0.gateCol a0 a1 a3 a6 a7) (Cert.KernelIdeal.Fold.wrapIdx a4) := by
  funext i
  obtain ⟨e, u, rfl⟩ : ∃ (e : Fin 500000) (u : Fin 1), i = ix2 e u := ⟨i 0, i 1, eq_ix2 i⟩
  have hu : u = 0 := Subsingleton.elim _ _
  subst hu
  rw [val_main_v52_apply]
  have e1 : idx_main_v52 (ix2 e (0 : Fin 1)) = ix1 e := funext fun a => Fin.ext (by match a with | ⟨0, _⟩ => rfl)
  rw [e1]
  unfold val_main_v51
  rw [start_eq]
  generalize Cert.KernelIdeal.Fold.wrapIdx a4 = idx
  have hL : Cert.ReferenceIdeal.gather_S100000_S500000x1_S500000_n_0_n_n_0_1_1
      = vecGather 100000 500000 Cert.ReferenceIdeal.gather_S100000_S500000x1_S500000_n_0_n_n_0_1_1.wf := rfl
  have hR : Cert.KernelIdeal.gather_S100000x1_S500000x1_S500000x1_1_0_n_n_0_1_11
      = rowGather 100000 500000 1 Cert.KernelIdeal.gather_S100000x1_S500000x1_S500000x1_1_0_n_n_0_1_11.wf := rfl
  rw [hL, hR]
  refine (gather_vec_apply (by decide) _ _ idx e).trans ?_
  refine Eq.trans ?_ (gather_rows_apply (by decide) _ _ idx e (0 : Fin 1)).symm
  exact gate_apply a0 a1 a3 a6 a7 _

/-- The aggregated context of the reference is the kernel program's context array of the entity features and gates. -/
theorem ctx_eq (a0 a1 : C S100000x256) (a3 : C S1x256) (a4 a5 : CI S500000) (a6 a7 : C S256) :
    Cert.ReferenceIdeal.Read.val_main_v57 (F := Ideal) a0 a1 a3 a4 a5 a6 a7
      = Cert.KernelIdeal.Fold.ctxArr (Cert.KernelIdeal.Blocks0.entArr a0 a1 a6 a7) (Cert.KernelIdeal.Blocks0.gateCol a0 a1 a3 a6 a7) a4 a5 := by
  unfold val_main_v57 val_main_v54 val_main_v44 val_main_v53 Cert.KernelIdeal.Fold.ctxArr
  rw [feat_eq, gate_eq, start_eq']
  rfl

end Cert.Score.CtxEq

end
-- ==== Proof.HostReads.lean ====
/-
  The host's arrays between the two regions, read at one entry, on the extended reals.

  The passage region is handed the upper 256 rows of the 512×256 first-layer weights, and the 1×256 row
  q·W' + b₁  formed from the lower 256 rows W': a slice from row 256 reads row 256 + k of the source, the host's
  product of a 1×256 row with a 256×256 matrix is the sum over k of the products, and a length-256 vector
  broadcast to one row reads its entry at the column. The 20000×1 column of scores flattened to a length-20000
  vector reads, at p, the column's entry (p, 0).
-/
import proofs.«110260_j21887153340681_1_alg».proof.Proof.Context
import proofs.«110260_j21887153340681_1_alg».proof.Proof.Spec
import proofs.«110260_j21887153340681_1_alg».proof.Proof.LibPlainDot
import Idealize.ShloMosaic.Lib.Pipeline.Value
import Idealize.ShloMosaic.Lib.ValueIdx
import Idealize.ShloMosaic.Lib.ValueLayout

noncomputable section

namespace Cert.KernelIdeal.HostReads

open Cert.KernelIdeal Cert.KernelIdeal.Gen Cert.KernelIdeal.Fold Cert.Score Idealize.ShloMosaic Idealize.ShloMosaic.ValueIdx

/-- The upper rows handed to the passage region: entry (k, j) is the weight matrix's entry (k, j). -/
theorem wtop_apply (A10 : FVec Ideal S512x256 .f32) (k j : Fin 256) :
    wtopArr A10 (ix2 k j) = topRows (fun a b => A10 (ix2 a b)) k j := by
  unfold wtopArr topRows
  exact slice2_axis0_apply 0 A10 _ k j ⟨k.val, by omega⟩ (Nat.zero_add _).symm

/-- The lower rows: the slice from row 256 reads, at (k, j), the weight matrix's entry (256 + k, j). -/
theorem wbot_apply (A10 : FVec Ideal S512x256 .f32) (k j : Fin 256) :
    extractStridedSlice S256x256 ![256, 0] A10 slices_S512x256_S256x256_256_0 (ix2 k j)
      = botRows (fun a b => A10 (ix2 a b)) k j := by
  unfold botRows
  exact slice2_axis0_apply 256 A10 _ k j ⟨256 + k.val, by omega⟩ rfl

/-- The first bias as a 1×256 row reads, at (0, j), its entry j. -/
theorem biasRow_apply (A11 : FVec Ideal S256 .f32) (j : Fin 256) :
    broadcastInDim S1x256 ![1] bcast_S256_S1x256_1 A11 (ix2 (0 : Fin 1) j) = A11 (ix1 j) := by
  refine broadcastInDim_apply ![1] bcast_S256_S1x256_1 A11 (ix2 (0 : Fin 1) j) (ix1 j) (fun a => ?_)
  match a with
  | ⟨0, _⟩ => rfl

/-- The row's product with a 256×256 matrix is the plain one: no batch axis, the row's columns against the matrix's rows. -/
theorem dims_query : dot_S1x256_S256x256_S1x256_1_0_0_1_n_n = DotDims.plain 1 256 256 := rfl

/-- THE QUERY'S SHARE OF THE HIDDEN LAYER'S INPUT AT UNIT j:  ∑ₖ q(k)·W'(k, j) + b₁(j)  with W' the lower 256 rows. -/
theorem qb_apply (A3 : FVec Ideal S1x256 .f32) (A10 : FVec Ideal S512x256 .f32) (A11 : FVec Ideal S256 .f32) (u : Fin 1) (j : Fin 256) :
    qbArr A3 A10 A11 (ix2 u j)
      = queryBias (fun k => A3 (ix2 (0 : Fin 1) k)) (botRows fun a b => A10 (ix2 a b)) (fun j' => A11 (ix1 j')) j := by
  obtain rfl : u = 0 := Subsingleton.elim _ _
  unfold qbArr queryBias
  refine (addf_apply _ _ _).trans ?_
  refine congrArg₂ (· + ·) ?_ (biasRow_apply A11 j)
  refine (Cert.LibPlainDot.dotGeneral_apply _ dims_query none _ A3 _ (0 : Fin 1) j).trans ?_
  exact Finset.sum_congr rfl fun k _ => congrArg (A3 (ix2 (0 : Fin 1) k) * ·) (wbot_apply A10 k j)

/-- The score column flattened to a vector reads, at p, the column's entry (p, 0). -/
theorem tail_apply (X : FVec Ideal S20000x1 .f32) (p : Fin 20000) :
    shapeCast S20000 X shapeCasts_S20000x1_S20000 (ix1 p) = X (ix2 p (0 : Fin 1)) :=
  shapeCast_apply X _ (ix1 p) (ix2 p (0 : Fin 1)) (by
    rw [Shape.rowMajor_val_two, Shape.rowMajor_val_one]
    show p.val * 1 + 0 = p.val
    omega)

end Cert.KernelIdeal.HostReads

end
-- ==== Proof.Bridge.lean ====
/-
  The reference's result is the kernel's: both are the flattened score column of the argument arrays.

  At passage p the reference's result is the score of row p: the two-layer head over the normalised sum of the row's
  features and its aggregated context, with the upper weight rows and the query's share.  The kernel's result at p is
  entry (p, 0) of its score column, the same expression over the context array its own host operations form, the
  sliced upper weight rows and the query's share computed on the host.  The two context arrays are one array, the
  sliced rows are the upper rows, and the host's query share is the specification's.
-/
import proofs.«110260_j21887153340681_1_alg».proof.Proof.RefRead
import proofs.«110260_j21887153340681_1_alg».proof.Proof.CtxEq
import proofs.«110260_j21887153340681_1_alg».proof.Proof.HostReads
import proofs.«110260_j21887153340681_1_alg».proof.Proof.Blocks1
import proofs.«110260_j21887153340681_1_alg».proof.Proof.Context

noncomputable section

namespace Cert.Score.Bridge

open Idealize.ShloMosaic Idealize.ShloMosaic.ValueIdx Cert.Score
open Cert.KernelIdeal Cert.KernelIdeal.Gen Cert.KernelIdeal.Fold Cert.KernelIdeal.Blocks0 Cert.KernelIdeal.Blocks1 Cert.KernelIdeal.HostReads

/-- The reference's result array is the flattened score column the kernel's program leaves. -/
theorem result_eq (a0 a1 : FVec Ideal S100000x256 .f32) (a2 : FVec Ideal S20000x256 .f32) (a3 : FVec Ideal S1x256 .f32)
    (a4 a5 : IVec S500000 32) (a6 a7 a8 a9 : FVec Ideal S256 .f32) (a10 : FVec Ideal S512x256 .f32) (a11 : FVec Ideal S256 .f32)
    (a12 : FVec Ideal S256x1 .f32) (a13 : FVec Ideal S1 .f32) :
    Cert.ReferenceIdeal.Read.val_main_v94 (F := Ideal) a0 a1 a2 a3 a4 a5 a6 a7 a8 a9 a10 a11 a12 a13
      = shapeCast S20000 (scoreCol a2 (ctxArr (entArr a0 a1 a6 a7) (gateCol a0 a1 a3 a6 a7) a4 a5) a8 a9 (wtopArr a10)
          (qbArr a3 a10 a11) a12 a13) shapeCasts_S20000x1_S20000 := by
  funext i
  obtain ⟨p, rfl⟩ : ∃ p : Fin 20000, i = ix1 p := ⟨i 0, eq_ix1 i⟩
  refine (Cert.Score.RefRead.score_apply a0 a1 a2 a3 a4 a5 a6 a7 a8 a9 a10 a11 a12 a13 p).trans ?_
  refine Eq.trans ?_ (tail_apply _ p).symm
  rw [Cert.Score.CtxEq.ctx_eq a0 a1 a3 a4 a5 a6 a7]
  show _ = score (hidden (psgRow (fun k => a2 (ix2 p k)) (fun k => ctxArr (entArr a0 a1 a6 a7) (gateCol a0 a1 a3 a6 a7) a4 a5 (ix2 p k))
        (fun k => a8 (ix1 k)) (fun k => a9 (ix1 k)))
      (fun k j => wtopArr a10 (ix2 k j)) (fun j => qbArr a3 a10 a11 (ix2 (0 : Fin 1) j)))
    (fun j => a12 (ix2 j (0 : Fin 1))) (a13 (ix1 (0 : Fin 1)))
  have hw : (fun k j : Fin 256 => wtopArr a10 (ix2 k j)) = topRows (fun a b => a10 (ix2 a b)) :=
    funext fun k => funext fun j => wtop_apply a10 k j
  have hq : (fun j : Fin 256 => qbArr a3 a10 a11 (ix2 (0 : Fin 1) j))
      = queryBias (fun k => a3 (ix2 (0 : Fin 1) k)) (botRows fun a b => a10 (ix2 a b)) (fun j' => a11 (ix1 j')) :=
    funext fun j => qb_apply a3 a10 a11 0 j
  rw [hw, hq]

end Cert.Score.Bridge

end
-- ==== Proof.lean ====
/-
  The certificate of the hybrid entity–passage scoring kernel against its reference, on the extended reals.

  The kernel runs in two regions around host operations: the first normalises the blend of each entity's two feature
  rows and gates it against the query; the host gathers each edge's entity row and gate, multiplies them and sums
  the products into the edge's passage row; the second region normalises each passage row plus its context and
  scores it with a two-layer head, the query's share of the first layer having been formed on the host from the lower
  half of the weights.  The reference computes the same scores with the query row concatenated to each normalised
  passage row before the full first layer.  The two results are equal entry by entry: row by row the two
  normalisations, the gate (the logistic, which the reference spells out as 1/(1 + e^(−x))) and the head are the
  same expressions; the sum over the 512 concatenated columns splits into the sum over the passage's 256 and the
  sum over the query's 256, and  (S₁ + S₂) + b = S₁ + (S₂ + b).  No step needs the inputs to be finite.

  The frames of the two kernel programs are the generated ones; the reference's frame is its generated run with
  the result dropped; the idealization rewrote nothing.
-/
import proofs.«110260_j21887153340681_1_alg».proof.Defs
import proofs.«110260_j21887153340681_1_alg».proof.Proof.Gen.Kernel
import proofs.«110260_j21887153340681_1_alg».proof.Proof.Gen.Kernel.Skeleton
import proofs.«110260_j21887153340681_1_alg».proof.Proof.Gen.Kernel.Launch
import proofs.«110260_j21887153340681_1_alg».proof.Proof.Gen.Kernel.Points
import proofs.«110260_j21887153340681_1_alg».proof.Proof.Gen.Kernel.Frame
import proofs.«110260_j21887153340681_1_alg».proof.Proof.Gen.KernelIdeal
import proofs.«110260_j21887153340681_1_alg».proof.Proof.Gen.KernelIdeal.Skeleton
import proofs.«110260_j21887153340681_1_alg».proof.Proof.Gen.KernelIdeal.Launch
import proofs.«110260_j21887153340681_1_alg».proof.Proof.Gen.KernelIdeal.Points
import proofs.«110260_j21887153340681_1_alg».proof.Proof.Gen.KernelIdeal.Frame
import proofs.«110260_j21887153340681_1_alg».proof.Proof.Gen.ReferenceIdeal
import proofs.«110260_j21887153340681_1_alg».proof.Proof.Gen.Pre_finite_inputs
import proofs.«110260_j21887153340681_1_alg».proof.Proof.Gen.ReferenceIdeal.Run
import proofs.«110260_j21887153340681_1_alg».proof.Proof.Gen.ReferenceIdeal.Read
import proofs.«110260_j21887153340681_1_alg».proof.Proof.KernelRun
import proofs.«110260_j21887153340681_1_alg».proof.Proof.Fold
import proofs.«110260_j21887153340681_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the flattened score column of the
    argument arrays as their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => shapeCast Cert.KernelIdeal.S20000 (Cert.KernelIdeal.Fold.scoreOf m c) Cert.KernelIdeal.Gen.shapeCasts_S20000x1_S20000, ?_, ?_⟩
  · exact (θ_run Cert.KernelIdeal.defs _ _).mono
      (fun r h c => ⟨(h c).1.trans (Cert.KernelIdeal.Fold.W4_result m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v94_eq, h0, h1, h2, h3, h4, h5, h6, h7, h8, h9, h10, h11, h12, h13]
    exact Cert.Score.Bridge.result_eq _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
